-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8x2x2 : Shape := ⟨3, ![8, 2, 2]⟩
abbrev S8x2 : Shape := ⟨2, ![8, 2]⟩
abbrev S1x2 : Shape := ⟨2, ![1, 2]⟩
abbrev S1 : Shape := ⟨1, ![1]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S8x2x2 : S_.BroadcastsInDim S8x2x2 (![] : Fin 0 → Fin S8x2x2.rank)
  reducesTo_S8x2x2_S_d0_1_2 : S8x2x2.ReducesTo [0, 1, 2] S_
  bcast_S_S8x2 : S_.BroadcastsInDim S8x2 (![] : Fin 0 → Fin S8x2.rank)
  reducesTo_S8x2_S_d0_1 : S8x2.ReducesTo [0, 1] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x2 1) : IVec S_ 1 :=
  let main_c_5 : IVec S_ 1 := constantI S_ 1 1#1
  let main_v17 : IVec S_ 1 := (fun x v => Host.reduce IntOp.andi x v reducesTo_S1x2_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8388608x2 .f32) (main_arg1 : FVec F S8x2x2 .f32) (main_arg2 : FVec F S8x2 .f32) (main_arg3 : FVec F S1x2 .f32) (main_arg4 : FVec F S1 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8x2x2 .f32 := Host.absf main_arg1
  let main_cst_0 : FVec F S_ .f32 := constant S_ .f32 0x7F800000#32
  let main_v5 : FVec F S8x2x2 .f32 := broadcastInDim S8x2x2 ![] bcast_S_S8x2x2 main_cst_0
  let main_v6 : IVec S8x2x2 1 := cmpf .olt main_v4 main_v5
  let main_c_1 : IVec S_ 1 := constantI S_ 1 1#1
  let main_v7 : IVec S_ 1 := (fun x v => Host.reduce IntOp.andi x v reducesTo_S8x2x2_S_d0_1_2 h_S_) main_v6 main_c_1
  let main_v8 : IVec S_ 1 := andi main_v3 main_v7
  let main_v9 : FVec F S8x2 .f32 := Host.absf main_arg2
  let main_cst_2 : FVec F S_ .f32 := constant S_ .f32 0x7F800000#32
  let main_v10 : FVec F S8x2 .f32 := broadcastInDim S8x2 ![] bcast_S_S8x2 main_cst_2
  let main_v11 : IVec S8x2 1 := cmpf .olt main_v9 main_v10
  let main_c_3 : IVec S_ 1 := constantI S_ 1 1#1
  let main_v12 : IVec S_ 1 := (fun x v => Host.reduce IntOp.andi x v reducesTo_S8x2_S_d0_1 h_S_) main_v11 main_c_3
  let main_v13 : IVec S_ 1 := andi main_v8 main_v12
  let main_v14 : FVec F S1x2 .f32 := Host.absf main_arg3
  let main_cst_4 : FVec F S_ .f32 := constant S_ .f32 0x7F800000#32
  let main_v15 : FVec F S1x2 .f32 := broadcastInDim S1x2 ![] bcast_S_S1x2 main_cst_4
  let main_v16 : IVec S1x2 1 := cmpf .olt main_v14 main_v15
  fn_part1 (F := F) main_arg4 main_v13 main_v16
-- ==== Kernel.lean ====
abbrev S8388608x2 : Shape := ⟨2, ![8388608, 2]⟩
abbrev S8x2x2 : Shape := ⟨3, ![8, 2, 2]⟩
abbrev S8x2 : Shape := ⟨2, ![8, 2]⟩
abbrev S1x2 : Shape := ⟨2, ![1, 2]⟩
abbrev S1 : Shape := ⟨1, ![1]⟩
abbrev S2x8388608 : Shape := ⟨2, ![2, 8388608]⟩
abbrev S1x8388608 : Shape := ⟨2, ![1, 8388608]⟩
abbrev S8388608 : Shape := ⟨1, ![8388608]⟩
abbrev S65536x128 : Shape := ⟨2, ![65536, 128]⟩
abbrev S4096x128 : Shape := ⟨2, ![4096, 128]⟩
abbrev S256x128 : Shape := ⟨2, ![256, 128]⟩
abbrev S1x2x2 : Shape := ⟨3, ![1, 2, 2]⟩
abbrev S2x2 : Shape := ⟨2, ![2, 2]⟩
abbrev S2 : Shape := ⟨1, ![2]⟩
abbrev S1x1 : Shape := ⟨2, ![1, 1]⟩
abbrev S8388608x1 : Shape := ⟨2, ![8388608, 1]⟩

abbrev nBuf : Space → Nat
  | .hbm => 14
  | .vmem => 10
  | .smem => 0
  | _ => 0

abbrev bufTy : (tb : Table) → Fin (tcTables nBuf tb) → BufTy
  | .hbm, ⟨0, _⟩ => ⟨S8388608x2, .f32⟩
  | .hbm, ⟨1, _⟩ => ⟨S8x2x2, .f32⟩
  | .hbm, ⟨2, _⟩ => ⟨S8x2, .f32⟩
  | .hbm, ⟨3, _⟩ => ⟨S1x2, .f32⟩
  | .hbm, ⟨4, _⟩ => ⟨S1, .f32⟩
  | .hbm, ⟨5, _⟩ => ⟨S2x8388608, .f32⟩
  | .hbm, ⟨6, _⟩ => ⟨S1x8388608, .f32⟩
  | .hbm, ⟨7, _⟩ => ⟨S8388608, .f32⟩
  | .hbm, ⟨8, _⟩ => ⟨S65536x128, .f32⟩
  | .hbm, ⟨9, _⟩ => ⟨S1x8388608, .f32⟩
  | .hbm, ⟨10, _⟩ => ⟨S8388608, .f32⟩
  | .hbm, ⟨11, _⟩ => ⟨S65536x128, .f32⟩
  | .hbm, ⟨12, _⟩ => ⟨S65536x128, .f32⟩
  | .hbm, ⟨13, _⟩ => ⟨S8388608x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x2x2, .f32⟩
  | .local _ .vmem, ⟨5, _⟩ => ⟨S8x2, .f32⟩
  | .local _ .vmem, ⟨6, _⟩ => ⟨S1x2, .f32⟩
  | .local _ .vmem, ⟨7, _⟩ => ⟨S1, .f32⟩
  | .local _ .vmem, ⟨8, _⟩ => ⟨S4096x128, .f32⟩
  | .local _ .vmem, ⟨9, _⟩ => ⟨S4096x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v1 : BitVec 32 := Scalar.muli arg8 c256_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S8388608x2_S2x8388608_1_0 : S8388608x2.Transposes [1, 0] S2x8388608
  slices_S2x8388608_S1x8388608_0_0 : S2x8388608.Slices ![0, 0] S1x8388608
  shapeCasts_S1x8388608_S8388608 : S1x8388608.ShapeCasts S8388608
  shapeCasts_S8388608_S65536x128 : S8388608.ShapeCasts S65536x128
  slices_S2x8388608_S1x8388608_1_0 : S2x8388608.Slices ![1, 0] S1x8388608
  h_S256x128 : 0 < S256x128.numel
  shapeCasts_S256x128_S256x128 : S256x128.ShapeCasts S256x128
  inb_S8x2x2_S1x2x2_0_0_0 : ∀ a, (![0, 0, 0] : Fin 3 → Nat) a + S1x2x2.size a ≤ S8x2x2.size a
  h_S1x2x2 : 0 < S1x2x2.numel
  shapeCasts_S1x2x2_S2x2 : S1x2x2.ShapeCasts S2x2
  inb_S8x2_S1x2_0_0 : ∀ a, (![0, 0] : Fin 2 → Nat) a + S1x2.size a ≤ S8x2.size a
  h_S1x2 : 0 < S1x2.numel
  shapeCasts_S1x2_S2 : S1x2.ShapeCasts S2
  slices_S2x2_o0_0_S1x1 : S2x2.Slices ![0, 0] S1x1
  inpos_S1x1_p0_0 : ∀ a, (![0, 0] : Fin 2 → Nat) a < S1x1.size a
  slices_S2x2_o0_1_S1x1 : S2x2.Slices ![0, 1] S1x1
  slices_S2x2_o1_0_S1x1 : S2x2.Slices ![1, 0] S1x1
  slices_S2x2_o1_1_S1x1 : S2x2.Slices ![1, 1] S1x1
  slices_S2_o0_S1 : S2.Slices ![0] S1
  inpos_S1_p0 : ∀ a, (![0] : Fin 1 → Nat) a < S1.size a
  slices_S2_o1_S1 : S2.Slices ![1] S1
  inb_S8x2x2_S1x2x2_1_0_0 : ∀ a, (![1, 0, 0] : Fin 3 → Nat) a + S1x2x2.size a ≤ S8x2x2.size a
  inb_S8x2_S1x2_1_0 : ∀ a, (![1, 0] : Fin 2 → Nat) a + S1x2.size a ≤ S8x2.size a
  inb_S8x2x2_S1x2x2_2_0_0 : ∀ a, (![2, 0, 0] : Fin 3 → Nat) a + S1x2x2.size a ≤ S8x2x2.size a
  inb_S8x2_S1x2_2_0 : ∀ a, (![2, 0] : Fin 2 → Nat) a + S1x2.size a ≤ S8x2.size a
  inb_S8x2x2_S1x2x2_3_0_0 : ∀ a, (![3, 0, 0] : Fin 3 → Nat) a + S1x2x2.size a ≤ S8x2x2.size a
  inb_S8x2_S1x2_3_0 : ∀ a, (![3, 0] : Fin 2 → Nat) a + S1x2.size a ≤ S8x2.size a
  inb_S8x2x2_S1x2x2_4_0_0 : ∀ a, (![4, 0, 0] : Fin 3 → Nat) a + S1x2x2.size a ≤ S8x2x2.size a
  inb_S8x2_S1x2_4_0 : ∀ a, (![4, 0] : Fin 2 → Nat) a + S1x2.size a ≤ S8x2.size a
  inb_S8x2x2_S1x2x2_5_0_0 : ∀ a, (![5, 0, 0] : Fin 3 → Nat) a + S1x2x2.size a ≤ S8x2x2.size a
  inb_S8x2_S1x2_5_0 : ∀ a, (![5, 0] : Fin 2 → Nat) a + S1x2.size a ≤ S8x2.size a
  inb_S8x2x2_S1x2x2_6_0_0 : ∀ a, (![6, 0, 0] : Fin 3 → Nat) a + S1x2x2.size a ≤ S8x2x2.size a
  inb_S8x2_S1x2_6_0 : ∀ a, (![6, 0] : Fin 2 → Nat) a + S1x2.size a ≤ S8x2.size a
  inb_S8x2x2_S1x2x2_7_0_0 : ∀ a, (![7, 0, 0] : Fin 3 → Nat) a + S1x2x2.size a ≤ S8x2x2.size a
  inb_S8x2_S1x2_7_0 : ∀ a, (![7, 0] : Fin 2 → Nat) a + S1x2.size a ≤ S8x2.size a
  inb_S1x2_S1x2_0_0 : ∀ a, (![0, 0] : Fin 2 → Nat) a + S1x2.size a ≤ S1x2.size a
  inb_S1_S1_0 : ∀ a, (![0] : Fin 1 → Nat) a + S1.size a ≤ S1.size a
  h_S1 : 0 < S1.numel
  shapeCasts_S65536x128_S8388608x1 : S65536x128.ShapeCasts S8388608x1
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2x2.size a ≤ S8x2x2.size a
  hwx0_2 : ∀ i : grid0.Coords, EltTy.bits .f32 = 32 ∨ (Rect.block (s := S8x2x2) S8x2x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S8x2.size a
  hwx0_3 : ∀ i : grid0.Coords, EltTy.bits .f32 = 32 ∨ (Rect.block (s := S8x2) S8x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S65536x128.size a
  hwx0_6 : ∀ i : grid0.Coords, EltTy.bits .f32 = 32 ∨ (Rect.block (s := S65536x128) S4096x128.size (cc0_transform_6 i) (hinb0_6 i)).WholeWords (EltTy.packing .f32)

variable [Facts₀]

abbrev win0_0 : Pipeline.Window sig grid0 :=
  Pipeline.Window.ofSpec (Memref.whole main_v3) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x2x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8x2x2 : Shape := ⟨3, ![8, 2, 2]⟩
abbrev S8x2 : Shape := ⟨2, ![8, 2]⟩
abbrev S1x2 : Shape := ⟨2, ![1, 2]⟩
abbrev S1 : Shape := ⟨1, ![1]⟩
abbrev S1x2x2 : Shape := ⟨3, ![1, 2, 2]⟩
abbrev S2x2 : Shape := ⟨2, ![2, 2]⟩
abbrev S2 : Shape := ⟨1, ![2]⟩
abbrev S_ : Shape := ⟨0, ![]⟩
abbrev S8388608x1 : Shape := ⟨2, ![8388608, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S8388608x2, .f32⟩
  | 1 => ⟨S8x2x2, .f32⟩
  | 2 => ⟨S8x2, .f32⟩
  | 3 => ⟨S1x2, .f32⟩
  | 4 => ⟨S1, .f32⟩
  | 5 => ⟨S1x2x2, .f32⟩
  | 6 => ⟨S2x2, .f32⟩
  | 7 => ⟨S8388608x2, .f32⟩
  | 8 => ⟨S1x2, .f32⟩
  | 9 => ⟨S2, .f32⟩
  | 10 => ⟨S1x2, .f32⟩
  | 11 => ⟨S8388608x2, .f32⟩
  | 12 => ⟨S8388608x2, .f32⟩
  | 13 => ⟨S8388608x2, .f32⟩
  | 14 => ⟨S8388608x2, .f32⟩
  | 15 => ⟨S_, .f32⟩
  | 16 => ⟨S8388608x2, .f32⟩
  | 17 => ⟨S8388608x2, .f32⟩
  | 18 => ⟨S_, .f32⟩
  | 19 => ⟨S8388608x2, .f32⟩
  | 20 => ⟨S8388608x2, .f32⟩
  | 21 => ⟨S1x2x2, .f32⟩
  | 22 => ⟨S2x2, .f32⟩
  | 23 => ⟨S8388608x2, .f32⟩
  | 24 => ⟨S1x2, .f32⟩
  | 25 => ⟨S2, .f32⟩
  | 26 => ⟨S1x2, .f32⟩
  | 27 => ⟨S8388608x2, .f32⟩
  | 28 => ⟨S8388608x2, .f32⟩
  | 29 => ⟨S8388608x2, .f32⟩
  | 30 => ⟨S8388608x2, .f32⟩
  | 31 => ⟨S_, .f32⟩
  | 32 => ⟨S8388608x2, .f32⟩
  | 33 => ⟨S8388608x2, .f32⟩
  | 34 => ⟨S_, .f32⟩
  | 35 => ⟨S8388608x2, .f32⟩
  | 36 => ⟨S8388608x2, .f32⟩
  | 37 => ⟨S1x2x2, .f32⟩
  | 38 => ⟨S2x2, .f32⟩
  | 39 => ⟨S8388608x2, .f32⟩
  | 40 => ⟨S1x2, .f32⟩
  | 41 => ⟨S2, .f32⟩
  | 42 => ⟨S1x2, .f32⟩
  | 43 => ⟨S8388608x2, .f32⟩
  | 44 => ⟨S8388608x2, .f32⟩
  | 45 => ⟨S8388608x2, .f32⟩
  | 46 => ⟨S8388608x2, .f32⟩
  | 47 => ⟨S_, .f32⟩
  | 48 => ⟨S8388608x2, .f32⟩
  | 49 => ⟨S8388608x2, .f32⟩
  | 50 => ⟨S_, .f32⟩
  | 51 => ⟨S8388608x2, .f32⟩
  | 52 => ⟨S8388608x2, .f32⟩
  | 53 => ⟨S1x2x2, .f32⟩
  | 54 => ⟨S2x2, .f32⟩
  | 55 => ⟨S8388608x2, .f32⟩
  | 56 => ⟨S1x2, .f32⟩
  | 57 => ⟨S2, .f32⟩
  | 58 => ⟨S1x2, .f32⟩
  | 59 => ⟨S8388608x2, .f32⟩
  | 60 => ⟨S8388608x2, .f32⟩
  | 61 => ⟨S8388608x2, .f32⟩
  | 62 => ⟨S8388608x2, .f32⟩
  | 63 => ⟨S_, .f32⟩
  | 64 => ⟨S8388608x2, .f32⟩
  | 65 => ⟨S8388608x2, .f32⟩
  | 66 => ⟨S_, .f32⟩
  | 67 => ⟨S8388608x2, .f32⟩
  | 68 => ⟨S8388608x2, .f32⟩
  | 69 => ⟨S1x2x2, .f32⟩
  | 70 => ⟨S2x2, .f32⟩
  | 71 => ⟨S8388608x2, .f32⟩
  | 72 => ⟨S1x2, .f32⟩
  | 73 => ⟨S2, .f32⟩
  | 74 => ⟨S1x2, .f32⟩
  | 75 => ⟨S8388608x2, .f32⟩
  | 76 => ⟨S8388608x2, .f32⟩
  | 77 => ⟨S8388608x2, .f32⟩
  | 78 => ⟨S8388608x2, .f32⟩
  | 79 => ⟨S_, .f32⟩
  | 80 => ⟨S8388608x2, .f32⟩
  | 81 => ⟨S8388608x2, .f32⟩
  | 82 => ⟨S_, .f32⟩
  | 83 => ⟨S8388608x2, .f32⟩
  | 84 => ⟨S8388608x2, .f32⟩
  | 85 => ⟨S1x2x2, .f32⟩
  | 86 => ⟨S2x2, .f32⟩
  | 87 => ⟨S8388608x2, .f32⟩
  | 88 => ⟨S1x2, .f32⟩
  | 89 => ⟨S2, .f32⟩
  | 90 => ⟨S1x2, .f32⟩
  | 91 => ⟨S8388608x2, .f32⟩
  | 92 => ⟨S8388608x2, .f32⟩
  | 93 => ⟨S8388608x2, .f32⟩
  | 94 => ⟨S8388608x2, .f32⟩
  | 95 => ⟨S_, .f32⟩
  | 96 => ⟨S8388608x2, .f32⟩
  | 97 => ⟨S8388608x2, .f32⟩
  | 98 => ⟨S_, .f32⟩
  | 99 => ⟨S8388608x2, .f32⟩
  | 100 => ⟨S8388608x2, .f32⟩
  | 101 => ⟨S1x2x2, .f32⟩
  | 102 => ⟨S2x2, .f32⟩
  | 103 => ⟨S8388608x2, .f32⟩
  | 104 => ⟨S1x2, .f32⟩
  | 105 => ⟨S2, .f32⟩
  | 106 => ⟨S1x2, .f32⟩
  | 107 => ⟨S8388608x2, .f32⟩
  | 108 => ⟨S8388608x2, .f32⟩
  | 109 => ⟨S8388608x2, .f32⟩
  | 110 => ⟨S8388608x2, .f32⟩
  | 111 => ⟨S_, .f32⟩
  | 112 => ⟨S8388608x2, .f32⟩
  | 113 => ⟨S8388608x2, .f32⟩
  | 114 => ⟨S_, .f32⟩
  | 115 => ⟨S8388608x2, .f32⟩
  | 116 => ⟨S8388608x2, .f32⟩
  | 117 => ⟨S1x2x2, .f32⟩
  | 118 => ⟨S2x2, .f32⟩
  | 119 => ⟨S8388608x2, .f32⟩
  | 120 => ⟨S1x2, .f32⟩
  | 121 => ⟨S2, .f32⟩
  | 122 => ⟨S1x2, .f32⟩
  | 123 => ⟨S8388608x2, .f32⟩
  | 124 => ⟨S8388608x2, .f32⟩
  | 125 => ⟨S8388608x2, .f32⟩
  | 126 => ⟨S8388608x2, .f32⟩
  | 127 => ⟨S_, .f32⟩
  | _ => ⟨S8388608x2, .f32⟩

abbrev hbmTy0_1 (i : Nat) : BufTy := match i % 128 with
  | 0 => ⟨S8388608x2, .f32⟩
  | 1 => ⟨S8388608x2, .f32⟩
  | 2 => ⟨S_, .f32⟩
  | 3 => ⟨S8388608x2, .f32⟩
  | 4 => ⟨S8388608x2, .f32⟩
  | 5 => ⟨S8388608x1, .f32⟩
  | 6 => ⟨S1x1, .f32⟩
  | 7 => ⟨S8388608x1, .f32⟩
  | 8 => ⟨S8388608x1, .f32⟩
  | 9 => ⟨S8388608x1, .f32⟩
  | 10 => ⟨S8388608x1, .f32⟩
  | 11 => ⟨S_, .f32⟩
  | 12 => ⟨S8388608x1, .f32⟩
  | 13 => ⟨S8388608x1, .f32⟩
  | 14 => ⟨S_, .f32⟩
  | 15 => ⟨S8388608x1, .f32⟩
  | 16 => ⟨S8388608x1, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_cst_12 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_13 : Ref sig .tc := ⟨.hbm, 127, rfl⟩
abbrev main_v108 : Ref sig .tc := ⟨.hbm, 128, rfl⟩
abbrev main_v109 : Ref sig .tc := ⟨.hbm, 129, rfl⟩
abbrev main_cst_14 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_15 : Ref sig .tc := ⟨.hbm, 139, rfl⟩
abbrev main_v118 : Ref sig .tc := ⟨.hbm, 140, rfl⟩
abbrev main_v119 : Ref sig .tc := ⟨.hbm, 141, rfl⟩
abbrev main_cst_16 : Ref sig .tc := ⟨.hbm, 142, rfl⟩
abbrev main_v120 : Ref sig .tc := ⟨.hbm, 143, rfl⟩
abbrev main_v121 : Ref sig .tc := ⟨.hbm, 144, rfl⟩

abbrev nD : Nat := 1
abbrev τ : Topo := Topo.v7x

variable {F : FTy → Type} [FloatOps F]

class Facts₀ : Prop where
  slices_S8x2x2_S1x2x2_0_0_0 : S8x2x2.Slices ![0, 0, 0] S1x2x2
  shapeCasts_S1x2x2_S2x2 : S1x2x2.ShapeCasts S2x2
  slices_S8x2_S1x2_0_0 : S8x2.Slices ![0, 0] S1x2
  shapeCasts_S1x2_S2 : S1x2.ShapeCasts S2
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  bcast_S_S8388608x2 : S_.BroadcastsInDim S8388608x2 (![] : Fin 0 → Fin S8388608x2.rank)
  slices_S8x2x2_S1x2x2_1_0_0 : S8x2x2.Slices ![1, 0, 0] S1x2x2
  slices_S8x2_S1x2_1_0 : S8x2.Slices ![1, 0] S1x2
  slices_S8x2x2_S1x2x2_2_0_0 : S8x2x2.Slices ![2, 0, 0] S1x2x2
  slices_S8x2_S1x2_2_0 : S8x2.Slices ![2, 0] S1x2
  slices_S8x2x2_S1x2x2_3_0_0 : S8x2x2.Slices ![3, 0, 0] S1x2x2
  slices_S8x2_S1x2_3_0 : S8x2.Slices ![3, 0] S1x2
  slices_S8x2x2_S1x2x2_4_0_0 : S8x2x2.Slices ![4, 0, 0] S1x2x2
  slices_S8x2_S1x2_4_0 : S8x2.Slices ![4, 0] S1x2
  slices_S8x2x2_S1x2x2_5_0_0 : S8x2x2.Slices ![5, 0, 0] S1x2x2
  slices_S8x2_S1x2_5_0 : S8x2.Slices ![5, 0] S1x2
  slices_S8x2x2_S1x2x2_6_0_0 : S8x2x2.Slices ![6, 0, 0] S1x2x2
  slices_S8x2_S1x2_6_0 : S8x2.Slices ![6, 0] S1x2
  slices_S8x2x2_S1x2x2_7_0_0 : S8x2x2.Slices ![7, 0, 0] S1x2x2
  slices_S8x2_S1x2_7_0 : S8x2.Slices ![7, 0] S1x2
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  bcast_S_S8388608x1 : S_.BroadcastsInDim S8388608x1 (![] : Fin 0 → Fin S8388608x1.rank)
  dot_S8388608x2_S2x2_S8388608x2_1_1_0_0_n_n_wf : DotDims.WF S8388608x2 S2x2 S8388608x2 [1] [1] [0] [0] [] []
  dot_S8388608x2_S1x2_S8388608x1_1_1_0_0_n_n_wf : DotDims.WF S8388608x2 S1x2 S8388608x1 [1] [1] [0] [0] [] []

variable [Facts₀]

def dot_S8388608x2_S2x2_S8388608x2_1_1_0_0_n_n : DotDims S8388608x2 S2x2 S8388608x2 where
  lhsContracting := [1]
  rhsContracting := [1]
  lhsNonContracting := [0]
  rhsNonContracting := [0]
  lhsBatch := []
  rhsBatch := []
  wf := dot_S8388608x2_S2x2_S8388608x2_1_1_0_0_n_n_wf
def dot_S8388608x2_S1x2_S8388608x1_1_1_0_0_n_n : DotDims S8388608x2 S1x2 S8388608x1 where
  lhsContracting := [1]
  rhsContracting := [1]
  lhsNonContracting := [0]
  rhsNonContracting := [0]
  lhsBatch := []
  rhsBatch := []
  wf := dot_S8388608x2_S1x2_S8388608x1_1_1_0_0_n_n_wf

class Facts : Prop extends Facts₀ where

variable [Facts]
-- ==== Proof.Spec.lean ====
import Idealize.ShloMosaic.PureOps.Ideal
import Idealize.ShloMosaic.Lib.ValueIdx

/-!
# The network both programs compute, on the extended reals

A row of the input is a pair `(x₀, x₁)`. Eight hidden layers map a pair `h` to the pair
`o ↦ σ(h₀ · W[l,o,0] + h₁ · W[l,o,1] + b[l,o])`, and the head maps the last pair to the single number
`σ(h₀ · W8[0,0] + h₁ · W8[0,1] + b8[0])`, where `σ z = 1 / (1 + e^(-z))` is the logistic function of the
extended reals (with `σ ⊥ = 0`, `σ ⊤ = 1`). Row `r` of the result depends on row `r` of the input only.
Nothing here needs the inputs to be finite: both programs spell the same sums and products in the same
order, so no law of arithmetic beyond the definitions is used.
-/

noncomputable section

namespace Cert.Mlp

open Idealize.ShloMosaic Idealize.ShloMosaic.ValueIdx

/-- The weights of the eight hidden layers, `[layer, out, in]`. -/
abbrev WsIdx : Type := (⟨3, ![8, 2, 2]⟩ : Shape).Idx
/-- Their biases, `[layer, out]`. -/
abbrev BsIdx : Type := (⟨2, ![8, 2]⟩ : Shape).Idx
/-- The head's weights `[1, in]` and bias `[1]`. -/
abbrev W8Idx : Type := (⟨2, ![1, 2]⟩ : Shape).Idx
abbrev B8Idx : Type := (⟨1, ![1]⟩ : Shape).Idx
/-- The input `[row, feature]` and the result `[row, 1]`. -/
abbrev XIdx : Type := (⟨2, ![8388608, 2]⟩ : Shape).Idx
abbrev OutIdx : Type := (⟨2, ![8388608, 1]⟩ : Shape).Idx

/-- Two indices of a rank-3 shape with equal coordinates are equal. -/
theorem idx3_ext {n0 n1 n2 : Nat} (i j : (⟨3, ![n0, n1, n2]⟩ : Shape).Idx)
    (h0 : (i 0).val = (j 0).val) (h1 : (i 1).val = (j 1).val) (h2 : (i 2).val = (j 2).val) : i = j :=
  funext fun a => Fin.ext (by match a with | ⟨0, _⟩ => exact h0 | ⟨1, _⟩ => exact h1 | ⟨2, _⟩ => exact h2)

/-- Two indices of a rank-2 shape with equal coordinates are equal. -/
theorem idx2_ext {n0 n1 : Nat} (i j : (⟨2, ![n0, n1]⟩ : Shape).Idx)
    (h0 : (i 0).val = (j 0).val) (h1 : (i 1).val = (j 1).val) : i = j :=
  funext fun a => Fin.ext (by match a with | ⟨0, _⟩ => exact h0 | ⟨1, _⟩ => exact h1)

/-- Two indices of a rank-1 shape with equal coordinates are equal. -/
theorem idx1_ext {n0 : Nat} (i j : (⟨1, ![n0]⟩ : Shape).Idx) (h0 : (i 0).val = (j 0).val) : i = j :=
  funext fun a => Fin.ext (by match a with | ⟨0, _⟩ => exact h0)

/-- One unit: the logistic function of an affine form of a pair. -/
def unit (h0 h1 w0 w1 b : EReal) : EReal := Ideal.logistic (h0 * w0 + h1 * w1 + b)

/-- Hidden layer `l` on a pair. -/
def layer (Ws : WsIdx → EReal) (bs : BsIdx → EReal) (l : Fin 8) (h : Fin 2 → EReal) : Fin 2 → EReal :=
  fun o => unit (h 0) (h 1) (Ws (ix3 l o 0)) (Ws (ix3 l o 1)) (bs (ix2 l o))

/-- The eight hidden layers, first to last. -/
def hidden (Ws : WsIdx → EReal) (bs : BsIdx → EReal) (h : Fin 2 → EReal) : Fin 2 → EReal :=
  layer Ws bs 7 (layer Ws bs 6 (layer Ws bs 5 (layer Ws bs 4 (layer Ws bs 3 (layer Ws bs 2 (layer Ws bs 1 (layer Ws bs 0 h)))))))

/-- The head on a pair. -/
def head (W8 : W8Idx → EReal) (b8 : B8Idx → EReal) (h : Fin 2 → EReal) : EReal :=
  unit (h 0) (h 1) (W8 (ix2 0 0)) (W8 (ix2 0 1)) (b8 (ix1 0))

/-- The whole network on a pair. -/
def net (Ws : WsIdx → EReal) (bs : BsIdx → EReal) (W8 : W8Idx → EReal) (b8 : B8Idx → EReal) (h : Fin 2 → EReal) : EReal :=
  head W8 b8 (hidden Ws bs h)

/-- The result array: row `r` is the network on row `r` of the input. -/
def result (x : XIdx → EReal) (Ws : WsIdx → EReal) (bs : BsIdx → EReal) (W8 : W8Idx → EReal) (b8 : B8Idx → EReal) :
    OutIdx → EReal :=
  fun i => net Ws bs W8 b8 (fun k => x (ix2 (i 0) k))

end Cert.Mlp

end
-- ==== Proof.RefSide.lean ====
import proofs.«122481_j37615323578711_2_alg».proof.Proof.Gen.ReferenceIdeal.Read
import proofs.«122481_j37615323578711_2_alg».proof.Proof.Spec
import Idealize.ShloMosaic.PureOps.IdealRules
import Idealize.ShloMosaic.Lib.ValueIdx
import Idealize.ShloMosaic.PureOps.Ideal.Laws

/-!
# The reference computes the network

The reference applies, layer by layer, a contraction over the two features (a sum of two products, in the order
feature 0 then feature 1), adds the bias, and spells the logistic function as `1 / (1 + exp (-z))`. On the
extended reals that spelling IS the logistic function, and the contraction is the affine form of the
specification term for term, so each layer of the reference is a layer of the specification, and the whole
result is `Cert.Mlp.result` of the arguments.
-/

noncomputable section

namespace Cert.Mlp.Ref

open Idealize.ShloMosaic Idealize.ShloMosaic.ValueIdx Cert.ReferenceIdeal Cert.ReferenceIdeal.Read Cert.Mlp

/-- The float word `1.0` denotes the number one. -/
theorem one_word : Ideal.ofBits .f32 0x3F800000#32 = 1 := IdealRules.sign_bit.ideal_onePat .f32

/-- The quotient of one by one plus the exponential of the negation is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, one_word]; rfl

variable (x0 : XIdx → EReal) (x1 : WsIdx → EReal) (x2 : BsIdx → EReal) (x3 : W8Idx → EReal) (x4 : B8Idx → EReal)

/-- Hidden layer 0 of the reference, on row `r`: the specification's layer 0 of the row's pair before it. -/
theorem layer0 (r : Fin 8388608) :
    (fun o => val_main_v13 (F := Ideal) x0 x1 x2 (ix2 r o)) = layer x1 x2 0 (fun k => (x0) (ix2 r k)) := by
  funext o
  have ho : o.val < 2 := o.isLt
  rw [val_main_v13_apply, val_main_v12_apply, val_main_cst_0_apply, val_main_v11_apply, val_main_v10_apply, val_main_cst_apply,
    val_main_v9_apply, val_main_v8_apply, logistic_spelt, val_main_v7_apply, val_main_v2_apply, Fin.sum_univ_two,
    val_main_v1_apply, val_main_v1_apply, val_main_v0_apply, val_main_v0_apply,
    val_main_v6_apply, val_main_v5_apply, val_main_v4_apply, val_main_v3_apply]
  unfold layer unit
  have hl (k : Fin 2) : lidx_main_v2 (ix2 r o) k = ix2 r k := idx2_ext _ _ rfl rfl
  have hw (k : Fin 2) : idx_main_v0 (idx_main_v1 (ridx_main_v2 (ix2 r o) k)) = ix3 0 o k :=
    idx3_ext _ _ (by show 0 = 0; rfl)
      (by show (o.val * 2 + k.val) / 2 % 2 = o.val; have hk : k.val < 2 := k.isLt; omega)
      (by show (o.val * 2 + k.val) % 2 = k.val; have hk : k.val < 2 := k.isLt; omega)
  have hb : idx_main_v3 (idx_main_v4 (idx_main_v5 (idx_main_v6 (ix2 r o)))) = ix2 0 o :=
    idx2_ext _ _ (by show 0 = 0; rfl) (by show o.val % 2 = o.val; omega)
  rw [hl 0, hl 1, hw 0, hw 1, hb]; rfl

/-- Hidden layer 1 of the reference, on row `r`: the specification's layer 1 of the row's pair before it. -/
theorem layer1 (r : Fin 8388608) :
    (fun o => val_main_v27 (F := Ideal) x0 x1 x2 (ix2 r o)) = layer x1 x2 1 (fun k => (val_main_v13 (F := Ideal) x0 x1 x2) (ix2 r k)) := by
  funext o
  have ho : o.val < 2 := o.isLt
  rw [val_main_v27_apply, val_main_v26_apply, val_main_cst_2_apply, val_main_v25_apply, val_main_v24_apply, val_main_cst_1_apply,
    val_main_v23_apply, val_main_v22_apply, logistic_spelt, val_main_v21_apply, val_main_v16_apply, Fin.sum_univ_two,
    val_main_v15_apply, val_main_v15_apply, val_main_v14_apply, val_main_v14_apply,
    val_main_v20_apply, val_main_v19_apply, val_main_v18_apply, val_main_v17_apply]
  unfold layer unit
  have hl (k : Fin 2) : lidx_main_v16 (ix2 r o) k = ix2 r k := idx2_ext _ _ rfl rfl
  have hw (k : Fin 2) : idx_main_v14 (idx_main_v15 (ridx_main_v16 (ix2 r o) k)) = ix3 1 o k :=
    idx3_ext _ _ (by show 1 + 0 = 1; rfl)
      (by show (o.val * 2 + k.val) / 2 % 2 = o.val; have hk : k.val < 2 := k.isLt; omega)
      (by show (o.val * 2 + k.val) % 2 = k.val; have hk : k.val < 2 := k.isLt; omega)
  have hb : idx_main_v17 (idx_main_v18 (idx_main_v19 (idx_main_v20 (ix2 r o)))) = ix2 1 o :=
    idx2_ext _ _ (by show 1 + 0 = 1; rfl) (by show o.val % 2 = o.val; omega)
  rw [hl 0, hl 1, hw 0, hw 1, hb]; rfl

/-- Hidden layer 2 of the reference, on row `r`: the specification's layer 2 of the row's pair before it. -/
theorem layer2 (r : Fin 8388608) :
    (fun o => val_main_v41 (F := Ideal) x0 x1 x2 (ix2 r o)) = layer x1 x2 2 (fun k => (val_main_v27 (F := Ideal) x0 x1 x2) (ix2 r k)) := by
  funext o
  have ho : o.val < 2 := o.isLt
  rw [val_main_v41_apply, val_main_v40_apply, val_main_cst_4_apply, val_main_v39_apply, val_main_v38_apply, val_main_cst_3_apply,
    val_main_v37_apply, val_main_v36_apply, logistic_spelt, val_main_v35_apply, val_main_v30_apply, Fin.sum_univ_two,
    val_main_v29_apply, val_main_v29_apply, val_main_v28_apply, val_main_v28_apply,
    val_main_v34_apply, val_main_v33_apply, val_main_v32_apply, val_main_v31_apply]
  unfold layer unit
  have hl (k : Fin 2) : lidx_main_v30 (ix2 r o) k = ix2 r k := idx2_ext _ _ rfl rfl
  have hw (k : Fin 2) : idx_main_v28 (idx_main_v29 (ridx_main_v30 (ix2 r o) k)) = ix3 2 o k :=
    idx3_ext _ _ (by show 2 + 0 = 2; rfl)
      (by show (o.val * 2 + k.val) / 2 % 2 = o.val; have hk : k.val < 2 := k.isLt; omega)
      (by show (o.val * 2 + k.val) % 2 = k.val; have hk : k.val < 2 := k.isLt; omega)
  have hb : idx_main_v31 (idx_main_v32 (idx_main_v33 (idx_main_v34 (ix2 r o)))) = ix2 2 o :=
    idx2_ext _ _ (by show 2 + 0 = 2; rfl) (by show o.val % 2 = o.val; omega)
  rw [hl 0, hl 1, hw 0, hw 1, hb]; rfl

/-- Hidden layer 3 of the reference, on row `r`: the specification's layer 3 of the row's pair before it. -/
theorem layer3 (r : Fin 8388608) :
    (fun o => val_main_v55 (F := Ideal) x0 x1 x2 (ix2 r o)) = layer x1 x2 3 (fun k => (val_main_v41 (F := Ideal) x0 x1 x2) (ix2 r k)) := by
  funext o
  have ho : o.val < 2 := o.isLt
  rw [val_main_v55_apply, val_main_v54_apply, val_main_cst_6_apply, val_main_v53_apply, val_main_v52_apply, val_main_cst_5_apply,
    val_main_v51_apply, val_main_v50_apply, logistic_spelt, val_main_v49_apply, val_main_v44_apply, Fin.sum_univ_two,
    val_main_v43_apply, val_main_v43_apply, val_main_v42_apply, val_main_v42_apply,
    val_main_v48_apply, val_main_v47_apply, val_main_v46_apply, val_main_v45_apply]
  unfold layer unit
  have hl (k : Fin 2) : lidx_main_v44 (ix2 r o) k = ix2 r k := idx2_ext _ _ rfl rfl
  have hw (k : Fin 2) : idx_main_v42 (idx_main_v43 (ridx_main_v44 (ix2 r o) k)) = ix3 3 o k :=
    idx3_ext _ _ (by show 3 + 0 = 3; rfl)
      (by show (o.val * 2 + k.val) / 2 % 2 = o.val; have hk : k.val < 2 := k.isLt; omega)
      (by show (o.val * 2 + k.val) % 2 = k.val; have hk : k.val < 2 := k.isLt; omega)
  have hb : idx_main_v45 (idx_main_v46 (idx_main_v47 (idx_main_v48 (ix2 r o)))) = ix2 3 o :=
    idx2_ext _ _ (by show 3 + 0 = 3; rfl) (by show o.val % 2 = o.val; omega)
  rw [hl 0, hl 1, hw 0, hw 1, hb]; rfl

/-- Hidden layer 4 of the reference, on row `r`: the specification's layer 4 of the row's pair before it. -/
theorem layer4 (r : Fin 8388608) :
    (fun o => val_main_v69 (F := Ideal) x0 x1 x2 (ix2 r o)) = layer x1 x2 4 (fun k => (val_main_v55 (F := Ideal) x0 x1 x2) (ix2 r k)) := by
  funext o
  have ho : o.val < 2 := o.isLt
  rw [val_main_v69_apply, val_main_v68_apply, val_main_cst_8_apply, val_main_v67_apply, val_main_v66_apply, val_main_cst_7_apply,
    val_main_v65_apply, val_main_v64_apply, logistic_spelt, val_main_v63_apply, val_main_v58_apply, Fin.sum_univ_two,
    val_main_v57_apply, val_main_v57_apply, val_main_v56_apply, val_main_v56_apply,
    val_main_v62_apply, val_main_v61_apply, val_main_v60_apply, val_main_v59_apply]
  unfold layer unit
  have hl (k : Fin 2) : lidx_main_v58 (ix2 r o) k = ix2 r k := idx2_ext _ _ rfl rfl
  have hw (k : Fin 2) : idx_main_v56 (idx_main_v57 (ridx_main_v58 (ix2 r o) k)) = ix3 4 o k :=
    idx3_ext _ _ (by show 4 + 0 = 4; rfl)
      (by show (o.val * 2 + k.val) / 2 % 2 = o.val; have hk : k.val < 2 := k.isLt; omega)
      (by show (o.val * 2 + k.val) % 2 = k.val; have hk : k.val < 2 := k.isLt; omega)
  have hb : idx_main_v59 (idx_main_v60 (idx_main_v61 (idx_main_v62 (ix2 r o)))) = ix2 4 o :=
    idx2_ext _ _ (by show 4 + 0 = 4; rfl) (by show o.val % 2 = o.val; omega)
  rw [hl 0, hl 1, hw 0, hw 1, hb]; rfl

/-- Hidden layer 5 of the reference, on row `r`: the specification's layer 5 of the row's pair before it. -/
theorem layer5 (r : Fin 8388608) :
    (fun o => val_main_v83 (F := Ideal) x0 x1 x2 (ix2 r o)) = layer x1 x2 5 (fun k => (val_main_v69 (F := Ideal) x0 x1 x2) (ix2 r k)) := by
  funext o
  have ho : o.val < 2 := o.isLt
  rw [val_main_v83_apply, val_main_v82_apply, val_main_cst_10_apply, val_main_v81_apply, val_main_v80_apply, val_main_cst_9_apply,
    val_main_v79_apply, val_main_v78_apply, logistic_spelt, val_main_v77_apply, val_main_v72_apply, Fin.sum_univ_two,
    val_main_v71_apply, val_main_v71_apply, val_main_v70_apply, val_main_v70_apply,
    val_main_v76_apply, val_main_v75_apply, val_main_v74_apply, val_main_v73_apply]
  unfold layer unit
  have hl (k : Fin 2) : lidx_main_v72 (ix2 r o) k = ix2 r k := idx2_ext _ _ rfl rfl
  have hw (k : Fin 2) : idx_main_v70 (idx_main_v71 (ridx_main_v72 (ix2 r o) k)) = ix3 5 o k :=
    idx3_ext _ _ (by show 5 + 0 = 5; rfl)
      (by show (o.val * 2 + k.val) / 2 % 2 = o.val; have hk : k.val < 2 := k.isLt; omega)
      (by show (o.val * 2 + k.val) % 2 = k.val; have hk : k.val < 2 := k.isLt; omega)
  have hb : idx_main_v73 (idx_main_v74 (idx_main_v75 (idx_main_v76 (ix2 r o)))) = ix2 5 o :=
    idx2_ext _ _ (by show 5 + 0 = 5; rfl) (by show o.val % 2 = o.val; omega)
  rw [hl 0, hl 1, hw 0, hw 1, hb]; rfl

/-- Hidden layer 6 of the reference, on row `r`: the specification's layer 6 of the row's pair before it. -/
theorem layer6 (r : Fin 8388608) :
    (fun o => val_main_v97 (F := Ideal) x0 x1 x2 (ix2 r o)) = layer x1 x2 6 (fun k => (val_main_v83 (F := Ideal) x0 x1 x2) (ix2 r k)) := by
  funext o
  have ho : o.val < 2 := o.isLt
  rw [val_main_v97_apply, val_main_v96_apply, val_main_cst_12_apply, val_main_v95_apply, val_main_v94_apply, val_main_cst_11_apply,
    val_main_v93_apply, val_main_v92_apply, logistic_spelt, val_main_v91_apply, val_main_v86_apply, Fin.sum_univ_two,
    val_main_v85_apply, val_main_v85_apply, val_main_v84_apply, val_main_v84_apply,
    val_main_v90_apply, val_main_v89_apply, val_main_v88_apply, val_main_v87_apply]
  unfold layer unit
  have hl (k : Fin 2) : lidx_main_v86 (ix2 r o) k = ix2 r k := idx2_ext _ _ rfl rfl
  have hw (k : Fin 2) : idx_main_v84 (idx_main_v85 (ridx_main_v86 (ix2 r o) k)) = ix3 6 o k :=
    idx3_ext _ _ (by show 6 + 0 = 6; rfl)
      (by show (o.val * 2 + k.val) / 2 % 2 = o.val; have hk : k.val < 2 := k.isLt; omega)
      (by show (o.val * 2 + k.val) % 2 = k.val; have hk : k.val < 2 := k.isLt; omega)
  have hb : idx_main_v87 (idx_main_v88 (idx_main_v89 (idx_main_v90 (ix2 r o)))) = ix2 6 o :=
    idx2_ext _ _ (by show 6 + 0 = 6; rfl) (by show o.val % 2 = o.val; omega)
  rw [hl 0, hl 1, hw 0, hw 1, hb]; rfl

/-- Hidden layer 7 of the reference, on row `r`: the specification's layer 7 of the row's pair before it. -/
theorem layer7 (r : Fin 8388608) :
    (fun o => val_main_v111 (F := Ideal) x0 x1 x2 (ix2 r o)) = layer x1 x2 7 (fun k => (val_main_v97 (F := Ideal) x0 x1 x2) (ix2 r k)) := by
  funext o
  have ho : o.val < 2 := o.isLt
  rw [val_main_v111_apply, val_main_v110_apply, val_main_cst_14_apply, val_main_v109_apply, val_main_v108_apply, val_main_cst_13_apply,
    val_main_v107_apply, val_main_v106_apply, logistic_spelt, val_main_v105_apply, val_main_v100_apply, Fin.sum_univ_two,
    val_main_v99_apply, val_main_v99_apply, val_main_v98_apply, val_main_v98_apply,
    val_main_v104_apply, val_main_v103_apply, val_main_v102_apply, val_main_v101_apply]
  unfold layer unit
  have hl (k : Fin 2) : lidx_main_v100 (ix2 r o) k = ix2 r k := idx2_ext _ _ rfl rfl
  have hw (k : Fin 2) : idx_main_v98 (idx_main_v99 (ridx_main_v100 (ix2 r o) k)) = ix3 7 o k :=
    idx3_ext _ _ (by show 7 + 0 = 7; rfl)
      (by show (o.val * 2 + k.val) / 2 % 2 = o.val; have hk : k.val < 2 := k.isLt; omega)
      (by show (o.val * 2 + k.val) % 2 = k.val; have hk : k.val < 2 := k.isLt; omega)
  have hb : idx_main_v101 (idx_main_v102 (idx_main_v103 (idx_main_v104 (ix2 r o)))) = ix2 7 o :=
    idx2_ext _ _ (by show 7 + 0 = 7; rfl) (by show o.val % 2 = o.val; omega)
  rw [hl 0, hl 1, hw 0, hw 1, hb]; rfl

/-- The eight hidden layers of the reference, on row `r`. -/
theorem hidden_eq (r : Fin 8388608) :
    (fun o => val_main_v111 (F := Ideal) x0 x1 x2 (ix2 r o)) = hidden x1 x2 (fun k => x0 (ix2 r k)) := by
  unfold hidden
  rw [layer7 x0 x1 x2 r, layer6 x0 x1 x2 r, layer5 x0 x1 x2 r, layer4 x0 x1 x2 r, layer3 x0 x1 x2 r, layer2 x0 x1 x2 r,
    layer1 x0 x1 x2 r, layer0 x0 x1 x2 r]

/-- The reference's result is the network, row by row. -/
theorem result_eq : val_main_v121 (F := Ideal) x0 x1 x2 x3 x4 = result x0 x1 x2 x3 x4 := by
  funext i
  obtain ⟨r, q, rfl⟩ : ∃ (r : Fin 8388608) (q : Fin 1), i = ix2 r q := ⟨i 0, i 1, eq_ix2 i⟩
  rw [val_main_v121_apply, val_main_v120_apply, val_main_cst_16_apply, val_main_v119_apply, val_main_v118_apply, val_main_cst_15_apply,
    val_main_v117_apply, val_main_v116_apply, logistic_spelt, val_main_v115_apply, val_main_v112_apply, Fin.sum_univ_two,
    val_main_v114_apply, val_main_v113_apply]
  unfold result net head unit
  rw [← hidden_eq x0 x1 x2 r]
  have hl (k : Fin 2) : lidx_main_v112 (ix2 r q) k = ix2 r k := idx2_ext _ _ rfl rfl
  have hw (k : Fin 2) : ridx_main_v112 (ix2 r q) k = ix2 0 k :=
    idx2_ext _ _ (by show q.val = 0; have hq : q.val < 1 := q.isLt; omega) rfl
  have hb : idx_main_v113 (idx_main_v114 (ix2 r q)) = ix1 0 := idx1_ext _ _ rfl
  rw [hl 0, hl 1, hw 0, hw 1, hb]; rfl

end Cert.Mlp.Ref

end
-- ==== Proof.StripValue.lean ====
import proofs.«122481_j37615323578711_2_alg».proof.Proof.Gen.KernelIdeal.Skeleton
import proofs.«122481_j37615323578711_2_alg».proof.Proof.Spec
import Idealize.ShloMosaic.Lib.ValueIdx
import Idealize.ShloMosaic.Lib.Pipeline.Value

/-!
# What one trip of the kernel's loop stores, at an index

One trip of the loop loads a strip of 256 rows of each of the two feature planes, the eight weight
matrices and bias vectors, and the head's weights and bias, and stores one strip. Every operation on the strips is
lane by lane, and every weight enters as a scalar spread over the strip, so element `y` of the stored strip
is the network of the specification applied to the pair of elements `y` of the two loaded strips.

The body's text is cut into consecutive parts, so a layer may be split into an affine form computed in one
part and its logistic function applied in the next; the named values below follow that cut, and each unit of
each layer is read at an index by one lemma.
-/

noncomputable section

namespace Cert.Mlp.Strip

open Idealize.ShloMosaic Idealize.ShloMosaic.ValueIdx Cert.KernelIdeal Cert.KernelIdeal.Gen Cert.Mlp

/-! ## Scalars taken out of small blocks -/

section Scalars
variable {α : Type}

/-- Entry `(o, i)` of a `[1, 2, 2]` block: viewed as `[2, 2]`, cut to the `[1, 1]` block at `(o, i)`, its one element. -/
theorem entry22 (v : S1x2x2.Idx → α) (hc : S1x2x2.ShapeCasts S2x2) (off : Fin 2 → Nat) (hs : S2x2.Slices off S1x1)
    (hp : ∀ a, (![0, 0] : Fin 2 → Nat) a < S1x1.size a) (o i : Fin 2) (ho : off 0 = o.val) (hi : off 1 = i.val) :
    extractAt ![0, 0] (extractStridedSlice S1x1 off (shapeCast S2x2 v hc) hs) hp = v (ix3 0 o i) := by
  unfold extractAt
  refine (extractStridedSlice_apply off _ hs _ (ix2 o i) (fun a => ?_)).trans ?_
  · match a with
    | ⟨0, _⟩ => show o.val = off 0 + 0; omega
    | ⟨1, _⟩ => show i.val = off 1 + 0; omega
  · refine shapeCast_apply v hc (ix2 o i) (ix3 0 o i) ?_
    rw [Shape.rowMajor_val_three, Shape.rowMajor_val_two]
    show (0 * 2 + o.val) * 2 + i.val = o.val * 2 + i.val
    omega

/-- Entry `o` of a `[1, 2]` block: viewed as `[2]`, cut to the `[1]` block at `o`, its one element. -/
theorem entry2 (v : S1x2.Idx → α) (hc : S1x2.ShapeCasts S2) (off : Fin 1 → Nat) (hs : S2.Slices off S1)
    (hp : ∀ a, (![0] : Fin 1 → Nat) a < S1.size a) (o : Fin 2) (ho : off 0 = o.val) :
    extractAt ![0] (extractStridedSlice S1 off (shapeCast S2 v hc) hs) hp = v (ix2 0 o) := by
  unfold extractAt
  refine (extractStridedSlice_apply off _ hs _ (ix1 o) (fun a => ?_)).trans ?_
  · match a with
    | ⟨0, _⟩ => show o.val = off 0 + 0; omega
  · refine shapeCast_apply v hc (ix1 o) (ix2 0 o) ?_
    rw [Shape.rowMajor_val_two, Shape.rowMajor_val_one]
    show 0 * 2 + o.val = o.val
    omega

/-- The one element of a `[1]` block. -/
theorem entry1 (v : S1.Idx → α) (hp : ∀ a, (![0] : Fin 1 → Nat) a < S1.size a) : extractAt ![0] v hp = v (ix1 0) := by
  unfold extractAt
  exact congrArg v (funext fun a => Fin.ext (by match a with | ⟨0, _⟩ => rfl))

end Scalars

/-! ## The values one trip names, over the vectors it loads

`a1`, `a2` are the two loaded strips, `W l`, `B l` the loaded weights and bias of hidden layer `l`. -/

section Named
variable {F : FTy → Type} [FloatOps F]

/-- Hidden layer 0, unit 0 and unit 1. -/
def hid0_0 (a1 a2 : Vec F S256x128 .f32) (W0 W1 W2 W3 W4 W5 W6 W7 : Vec F S1x2x2 .f32) (B0 B1 B2 B3 B4 B5 B6 B7 : Vec F S1x2 .f32) := k0_pay6 a1 a2 W0 B0
def hid0_1 (a1 a2 : Vec F S256x128 .f32) (W0 W1 W2 W3 W4 W5 W6 W7 : Vec F S1x2x2 .f32) (B0 B1 B2 B3 B4 B5 B6 B7 : Vec F S1x2 .f32) := k0_pay7 a1 a2 W0 B0
/-- Layer 1's weight matrix, bias vector and first weight, taken out ahead of their use. -/
def mat1 (a1 a2 : Vec F S256x128 .f32) (W0 W1 W2 W3 W4 W5 W6 W7 : Vec F S1x2x2 .f32) (B0 B1 B2 B3 B4 B5 B6 B7 : Vec F S1x2 .f32) := k0_pay8 W1
def bias1 (a1 a2 : Vec F S256x128 .f32) (W0 W1 W2 W3 W4 W5 W6 W7 : Vec F S1x2x2 .f32) (B0 B1 B2 B3 B4 B5 B6 B7 : Vec F S1x2 .f32) := k0_pay9 B1
def w1_00 (a1 a2 : Vec F S256x128 .f32) (W0 W1 W2 W3 W4 W5 W6 W7 : Vec F S1x2x2 .f32) (B0 B1 B2 B3 B4 B5 B6 B7 : Vec F S1x2 .f32) := k0_pay10 W1
/-- Hidden layer 1. -/
def hid1_0 (a1 a2 : Vec F S256x128 .f32) (W0 W1 W2 W3 W4 W5 W6 W7 : Vec F S1x2x2 .f32) (B0 B1 B2 B3 B4 B5 B6 B7 : Vec F S1x2 .f32) := k0_pay11 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7) (w1_00 a1 a2 W0 W1 W2 W3 W4 W5 W6 W7 B0 B1 B2 B3 B4 B5 B6 B7)
def hid1_1 (a1 a2 : Vec F S256x128 .f32) (W0 W1 W2 W3 W4 W5 W6 W7 : Vec F S1x2x2 .f32) (B0 B1 B2 B3 B4 B5 B6 B7 : Vec F S1x2 .f32) := k0_pay12 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7)
/-- Layer 2 before its logistic function: unit 0's affine form, unit 1's without its bias, and that bias spread. -/
def pre2_0 (a1 a2 : Vec F S256x128 .f32) (W0 W1 W2 W3 W4 W5 W6 W7 : Vec F S1x2x2 .f32) (B0 B1 B2 B3 B4 B5 B6 B7 : Vec F S1x2 .f32) := k0_pay15 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7) (w1_00 a1 a2 W0 W1 W2 W3 W4 W5 W6 W7 B0 B1 B2 B3 B4 B5 B6 B7) W2 B2
def lin2_1 (a1 a2 : Vec F S256x128 .f32) (W0 W1 W2 W3 W4 W5 W6 W7 : Vec F S1x2x2 .f32) (B0 B1 B2 B3 B4 B5 B6 B7 : Vec F S1x2 .f32) := k0_pay16 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7) (w1_00 a1 a2 W0 W1 W2 W3 W4 W5 W6 W7 B0 B1 B2 B3 B4 B5 B6 B7) W2
def bias2_1 (a1 a2 : Vec F S256x128 .f32) (W0 W1 W2 W3 W4 W5 W6 W7 : Vec F S1x2x2 .f32) (B0 B1 B2 B3 B4 B5 B6 B7 : Vec F S1x2 .f32) := k0_pay17 B2
/-- Hidden layer 2. -/
def hid2_0 (a1 a2 : Vec F S256x128 .f32) (W0 W1 W2 W3 W4 W5 W6 W7 : Vec F S1x2x2 .f32) (B0 B1 B2 B3 B4 B5 B6 B7 : Vec F S1x2 .f32) := k0_pay18 (pre2_0 a1 a2 W0 W1 W2 W3 W4 W5 W6 W7 B0 B1 B2 B3 B4 B5 B6 B7)
def hid2_1 (a1 a2 : Vec F S256x128 .f32) (W0 W1 W2 W3 W4 W5 W6 W7 : Vec F S1x2x2 .f32) (B0 B1 B2 B3 B4 B5 B6 B7 : Vec F S1x2 .f32) := k0_pay19 (lin2_1 a1 a2 W0 W1 W2 W3 W4 W5 W6 W7 B0 B1 B2 B3 B4 B5 B6 B7) (bias2_1 a1 a2 W0 W1 W2 W3 W4 W5 W6 W7 B0 B1 B2 B3 B4 B5 B6 B7)
/-- Hidden layer 3. -/
def hid3_0 (a1 a2 : Vec F S256x128 .f32) (W0 W1 W2 W3 W4 W5 W6 W7 : Vec F S1x2x2 .f32) (B0 B1 B2 B3 B4 B5 B6 B7 : Vec F S1x2 .f32) := k0_pay22 (pre2_0 a1 a2 W0 W1 W2 W3 W4 W5 W6 W7 B0 B1 B2 B3 B4 B5 B6 B7) (lin2_1 a1 a2 W0 W1 W2 W3 W4 W5 W6 W7 B0 B1 B2 B3 B4 B5 B6 B7) (bias2_1 a1 a2 W0 W1 W2 W3 W4 W5 W6 W7 B0 B1 B2 B3 B4 B5 B6 B7) W3 B3
def hid3_1 (a1 a2 : Vec F S256x128 .f32) (W0 W1 W2 W3 W4 W5 W6 W7 : Vec F S1x2x2 .f32) (B0 B1 B2 B3 B4 B5 B6 B7 : Vec F S1x2 .f32) := k0_pay23 (pre2_0 a1 a2 W0 W1 W2 W3 W4 W5 W6 W7 B0 B1 B2 B3 B4 B5 B6 B7) (lin2_1 a1 a2 W0 W1 W2 W3 W4 W5 W6 W7 B0 B1 B2 B3 B4 B5 B6 B7) (bias2_1 a1 a2 W0 W1 W2 W3 W4 W5 W6 W7 B0 B1 B2 B3 B4 B5 B6 B7) W3 B3
/-- Layer 4's four weights and two biases (the second still a one-element vector). -/
def w4_00 (a1 a2 : Vec F S256x128 .f32) (W0 W1 W2 W3 W4 W5 W6 W7 : Vec F S1x2x2 .f32) (B0 B1 B2 B3 B4 B5 B6 B7 : Vec F S1x2 .f32) := k0_pay26 W4
def w4_01 (a1 a2 : Vec F S256x128 .f32) (W0 W1 W2 W3 W4 W5 W6 W7 : Vec F S1x2x2 .f32) (B0 B1 B2 B3 B4 B5 B6 B7 : Vec F S1x2 .f32) := k0_pay27 W4
def w4_10 (a1 a2 : Vec F S256x128 .f32) (W0 W1 W2 W3 W4 W5 W6 W7 : Vec F S1x2x2 .f32) (B0 B1 B2 B3 B4 B5 B6 B7 : Vec F S1x2 .f32) := k0_pay28 W4
def w4_11 (a1 a2 : Vec F S256x128 .f32) (W0 W1 W2 W3 W4 W5 W6 W7 : Vec F S1x2x2 .f32) (B0 B1 B2 B3 B4 B5 B6 B7 : Vec F S1x2 .f32) := k0_pay29 W4
def b4_0 (a1 a2 : Vec F S256x128 .f32) (W0 W1 W2 W3 W4 W5 W6 W7 : Vec F S1x2x2 .f32) (B0 B1 B2 B3 B4 B5 B6 B7 : Vec F S1x2 .f32) := k0_pay30 B4
def b4_1 (a1 a2 : Vec F S256x128 .f32) (W0 W1 W2 W3 W4 W5 W6 W7 : Vec F S1x2x2 .f32) (B0 B1 B2 B3 B4 B5 B6 B7 : Vec F S1x2 .f32) := k0_pay31 B4
/-- Hidden layer 4. -/
def hid4_0 (a1 a2 : Vec F S256x128 .f32) (W0 W1 W2 W3 W4 W5 W6 W7 : Vec F S1x2x2 .f32) (B0 B1 B2 B3 B4 B5 B6 B7 : Vec F S1x2 .f32) := k0_pay32 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_00 a1 a2 W0 W1 W2 W3 W4 W5 W6 W7 B0 B1 B2 B3 B4 B5 B6 B7) (w4_01 a1 a2 W0 W1 W2 W3 W4 W5 W6 W7 B0 B1 B2 B3 B4 B5 B6 B7) (b4_0 a1 a2 W0 W1 W2 W3 W4 W5 W6 W7 B0 B1 B2 B3 B4 B5 B6 B7)
def hid4_1 (a1 a2 : Vec F S256x128 .f32) (W0 W1 W2 W3 W4 W5 W6 W7 : Vec F S1x2x2 .f32) (B0 B1 B2 B3 B4 B5 B6 B7 : Vec F S1x2 .f32) := k0_pay33 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_10 a1 a2 W0 W1 W2 W3 W4 W5 W6 W7 B0 B1 B2 B3 B4 B5 B6 B7) (w4_11 a1 a2 W0 W1 W2 W3 W4 W5 W6 W7 B0 B1 B2 B3 B4 B5 B6 B7) (b4_1 a1 a2 W0 W1 W2 W3 W4 W5 W6 W7 B0 B1 B2 B3 B4 B5 B6 B7)
/-- Hidden layer 5. -/
def hid5_0 (a1 a2 : Vec F S256x128 .f32) (W0 W1 W2 W3 W4 W5 W6 W7 : Vec F S1x2x2 .f32) (B0 B1 B2 B3 B4 B5 B6 B7 : Vec F S1x2 .f32) := k0_pay36 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_00 a1 a2 W0 W1 W2 W3 W4 W5 W6 W7 B0 B1 B2 B3 B4 B5 B6 B7) (w4_01 a1 a2 W0 W1 W2 W3 W4 W5 W6 W7 B0 B1 B2 B3 B4 B5 B6 B7) (w4_10 a1 a2 W0 W1 W2 W3 W4 W5 W6 W7 B0 B1 B2 B3 B4 B5 B6 B7) (w4_11 a1 a2 W0 W1 W2 W3 W4 W5 W6 W7 B0 B1 B2 B3 B4 B5 B6 B7) (b4_0 a1 a2 W0 W1 W2 W3 W4 W5 W6 W7 B0 B1 B2 B3 B4 B5 B6 B7) (b4_1 a1 a2 W0 W1 W2 W3 W4 W5 W6 W7 B0 B1 B2 B3 B4 B5 B6 B7) W5 B5
def hid5_1 (a1 a2 : Vec F S256x128 .f32) (W0 W1 W2 W3 W4 W5 W6 W7 : Vec F S1x2x2 .f32) (B0 B1 B2 B3 B4 B5 B6 B7 : Vec F S1x2 .f32) := k0_pay37 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_00 a1 a2 W0 W1 W2 W3 W4 W5 W6 W7 B0 B1 B2 B3 B4 B5 B6 B7) (w4_01 a1 a2 W0 W1 W2 W3 W4 W5 W6 W7 B0 B1 B2 B3 B4 B5 B6 B7) (w4_10 a1 a2 W0 W1 W2 W3 W4 W5 W6 W7 B0 B1 B2 B3 B4 B5 B6 B7) (w4_11 a1 a2 W0 W1 W2 W3 W4 W5 W6 W7 B0 B1 B2 B3 B4 B5 B6 B7) (b4_0 a1 a2 W0 W1 W2 W3 W4 W5 W6 W7 B0 B1 B2 B3 B4 B5 B6 B7) (b4_1 a1 a2 W0 W1 W2 W3 W4 W5 W6 W7 B0 B1 B2 B3 B4 B5 B6 B7) W5 B5
/-- Layer 6's weight matrix. -/
def mat6 (a1 a2 : Vec F S256x128 .f32) (W0 W1 W2 W3 W4 W5 W6 W7 : Vec F S1x2x2 .f32) (B0 B1 B2 B3 B4 B5 B6 B7 : Vec F S1x2 .f32) := k0_pay38 W6
/-- Hidden layer 6. -/
def hid6_0 (a1 a2 : Vec F S256x128 .f32) (W0 W1 W2 W3 W4 W5 W6 W7 : Vec F S1x2x2 .f32) (B0 B1 B2 B3 B4 B5 B6 B7 : Vec F S1x2 .f32) := k0_pay40 (hid5_0 a1 a2 W0 W1 W2 W3 W4 W5 W6 W7 B0 B1 B2 B3 B4 B5 B6 B7) (hid5_1 a1 a2 W0 W1 W2 W3 W4 W5 W6 W7 B0 B1 B2 B3 B4 B5 B6 B7) (mat6 a1 a2 W0 W1 W2 W3 W4 W5 W6 W7 B0 B1 B2 B3 B4 B5 B6 B7) B6
def hid6_1 (a1 a2 : Vec F S256x128 .f32) (W0 W1 W2 W3 W4 W5 W6 W7 : Vec F S1x2x2 .f32) (B0 B1 B2 B3 B4 B5 B6 B7 : Vec F S1x2 .f32) := k0_pay41 (hid5_0 a1 a2 W0 W1 W2 W3 W4 W5 W6 W7 B0 B1 B2 B3 B4 B5 B6 B7) (hid5_1 a1 a2 W0 W1 W2 W3 W4 W5 W6 W7 B0 B1 B2 B3 B4 B5 B6 B7) (mat6 a1 a2 W0 W1 W2 W3 W4 W5 W6 W7 B0 B1 B2 B3 B4 B5 B6 B7) B6
/-- Layer 7 before its logistic function: unit 0's affine form; of unit 1, two weights (one spread) and the bias. -/
def w7_11 (a1 a2 : Vec F S256x128 .f32) (W0 W1 W2 W3 W4 W5 W6 W7 : Vec F S1x2x2 .f32) (B0 B1 B2 B3 B4 B5 B6 B7 : Vec F S1x2 .f32) := k0_pay44 W7
def b7_1 (a1 a2 : Vec F S256x128 .f32) (W0 W1 W2 W3 W4 W5 W6 W7 : Vec F S1x2x2 .f32) (B0 B1 B2 B3 B4 B5 B6 B7 : Vec F S1x2 .f32) := k0_pay45 B7
def pre7_0 (a1 a2 : Vec F S256x128 .f32) (W0 W1 W2 W3 W4 W5 W6 W7 : Vec F S1x2x2 .f32) (B0 B1 B2 B3 B4 B5 B6 B7 : Vec F S1x2 .f32) := k0_pay46 (hid5_0 a1 a2 W0 W1 W2 W3 W4 W5 W6 W7 B0 B1 B2 B3 B4 B5 B6 B7) (hid5_1 a1 a2 W0 W1 W2 W3 W4 W5 W6 W7 B0 B1 B2 B3 B4 B5 B6 B7) (mat6 a1 a2 W0 W1 W2 W3 W4 W5 W6 W7 B0 B1 B2 B3 B4 B5 B6 B7) B6 W7 B7
def w7_10 (a1 a2 : Vec F S256x128 .f32) (W0 W1 W2 W3 W4 W5 W6 W7 : Vec F S1x2x2 .f32) (B0 B1 B2 B3 B4 B5 B6 B7 : Vec F S1x2 .f32) := k0_pay47 W7
/-- The stored strip: layer 7 completed and the head applied, `w8` and `b8` the head's loaded weights and bias. -/
def stripOut (a1 a2 : Vec F S256x128 .f32) (W0 W1 W2 W3 W4 W5 W6 W7 : Vec F S1x2x2 .f32) (B0 B1 B2 B3 B4 B5 B6 B7 : Vec F S1x2 .f32) (w8 : Vec F S1x2 .f32) (b8 : Vec F S1 .f32) :=
  k0_pay1 (hid6_0 a1 a2 W0 W1 W2 W3 W4 W5 W6 W7 B0 B1 B2 B3 B4 B5 B6 B7) (hid6_1 a1 a2 W0 W1 W2 W3 W4 W5 W6 W7 B0 B1 B2 B3 B4 B5 B6 B7) (w7_11 a1 a2 W0 W1 W2 W3 W4 W5 W6 W7 B0 B1 B2 B3 B4 B5 B6 B7) (b7_1 a1 a2 W0 W1 W2 W3 W4 W5 W6 W7 B0 B1 B2 B3 B4 B5 B6 B7) (pre7_0 a1 a2 W0 W1 W2 W3 W4 W5 W6 W7 B0 B1 B2 B3 B4 B5 B6 B7) (w7_10 a1 a2 W0 W1 W2 W3 W4 W5 W6 W7 B0 B1 B2 B3 B4 B5 B6 B7) w8 b8

end Named

/-! ## Each unit at an index (the extended reals) -/

section Units

/-- Layer 0, unit 0, of the loaded strips (their casts to their own shape are the identity). -/
theorem unit0_0 (v4 v7 : Vec Ideal S256x128 .f32) (v9 : Vec Ideal S1x2x2 .f32) (v11 : Vec Ideal S1x2 .f32) (y : S256x128.Idx) :
    k0_pay6 v4 v7 v9 v11 y = unit (v4 y) (v7 y) (v9 (ix3 0 0 0)) (v9 (ix3 0 0 1)) (v11 (ix2 0 0)) := by
  simp only [k0_pay6, k0_pay2, k0_pay3, k0_pay4, k0_pay5, logistic, addf, mulf, broadcast]
  rw [entry22 v9 shapeCasts_S1x2x2_S2x2 ![0, 0] slices_S2x2_o0_0_S1x1 inpos_S1x1_p0_0 0 0 rfl rfl, entry22 v9 shapeCasts_S1x2x2_S2x2 ![0, 1] slices_S2x2_o0_1_S1x1 inpos_S1x1_p0_0 0 1 rfl rfl,
    entry2 v11 shapeCasts_S1x2_S2 ![0] slices_S2_o0_S1 inpos_S1_p0 0 rfl,
    shapeCast_self v4 shapeCasts_S256x128_S256x128, shapeCast_self v7 shapeCasts_S256x128_S256x128]
  rfl

/-- Layer 0, unit 1. -/
theorem unit0_1 (v4 v7 : Vec Ideal S256x128 .f32) (v9 : Vec Ideal S1x2x2 .f32) (v11 : Vec Ideal S1x2 .f32) (y : S256x128.Idx) :
    k0_pay7 v4 v7 v9 v11 y = unit (v4 y) (v7 y) (v9 (ix3 0 1 0)) (v9 (ix3 0 1 1)) (v11 (ix2 0 1)) := by
  simp only [k0_pay7, k0_pay2, k0_pay3, k0_pay4, k0_pay5, logistic, addf, mulf, broadcast]
  rw [entry22 v9 shapeCasts_S1x2x2_S2x2 ![1, 0] slices_S2x2_o1_0_S1x1 inpos_S1x1_p0_0 1 0 rfl rfl, entry22 v9 shapeCasts_S1x2x2_S2x2 ![1, 1] slices_S2x2_o1_1_S1x1 inpos_S1x1_p0_0 1 1 rfl rfl,
    entry2 v11 shapeCasts_S1x2_S2 ![1] slices_S2_o1_S1 inpos_S1_p0 1 rfl,
    shapeCast_self v4 shapeCasts_S256x128_S256x128, shapeCast_self v7 shapeCasts_S256x128_S256x128]
  rfl

/-- Layer 1, unit 0, of layer 0's strips. -/
theorem unit1_0 (v39 v40 : FVec Ideal S256x128 .f32) (v41 : Vec Ideal S1x2x2 .f32) (v43 : Vec Ideal S1x2 .f32) (y : S256x128.Idx) :
    k0_pay11 v39 v40 (k0_pay8 v41) (k0_pay9 v43) (k0_pay10 v41) y = unit (v39 y) (v40 y) (v41 (ix3 0 0 0)) (v41 (ix3 0 0 1)) (v43 (ix2 0 0)) := by
  simp only [k0_pay11, k0_pay8, k0_pay9, k0_pay10, logistic, addf, mulf, broadcast]
  rw [entry22 v41 shapeCasts_S1x2x2_S2x2 ![0, 0] slices_S2x2_o0_0_S1x1 inpos_S1x1_p0_0 0 0 rfl rfl, entry22 v41 shapeCasts_S1x2x2_S2x2 ![0, 1] slices_S2x2_o0_1_S1x1 inpos_S1x1_p0_0 0 1 rfl rfl,
    entry2 v43 shapeCasts_S1x2_S2 ![0] slices_S2_o0_S1 inpos_S1_p0 0 rfl]
  rfl

/-- Layer 1, unit 1. -/
theorem unit1_1 (v39 v40 : FVec Ideal S256x128 .f32) (v41 : Vec Ideal S1x2x2 .f32) (v43 : Vec Ideal S1x2 .f32) (y : S256x128.Idx) :
    k0_pay12 v39 v40 (k0_pay8 v41) (k0_pay9 v43) y = unit (v39 y) (v40 y) (v41 (ix3 0 1 0)) (v41 (ix3 0 1 1)) (v43 (ix2 0 1)) := by
  simp only [k0_pay12, k0_pay8, k0_pay9, logistic, addf, mulf, broadcast]
  rw [entry22 v41 shapeCasts_S1x2x2_S2x2 ![1, 0] slices_S2x2_o1_0_S1x1 inpos_S1x1_p0_0 1 0 rfl rfl, entry22 v41 shapeCasts_S1x2x2_S2x2 ![1, 1] slices_S2x2_o1_1_S1x1 inpos_S1x1_p0_0 1 1 rfl rfl,
    entry2 v43 shapeCasts_S1x2_S2 ![1] slices_S2_o1_S1 inpos_S1_p0 1 rfl]
  rfl

/-- Layer 2, unit 0: the logistic function of the affine form computed a part earlier. -/
theorem unit2_0 (v39 v40 : FVec Ideal S256x128 .f32) (v42 : FVec Ideal S2x2 .f32) (v44 : FVec Ideal S2 .f32) (v46 : Ideal .f32) (v73 : Vec Ideal S1x2x2 .f32) (v75 : Vec Ideal S1x2 .f32) (y : S256x128.Idx) :
    k0_pay18 (k0_pay15 v39 v40 v42 v44 v46 v73 v75) y = unit (k0_pay11 v39 v40 v42 v44 v46 y) (k0_pay12 v39 v40 v42 v44 y) (v73 (ix3 0 0 0)) (v73 (ix3 0 0 1)) (v75 (ix2 0 0)) := by
  simp only [k0_pay18, k0_pay15, k0_pay13, k0_pay14, logistic, addf, mulf, broadcast]
  rw [entry22 v73 shapeCasts_S1x2x2_S2x2 ![0, 0] slices_S2x2_o0_0_S1x1 inpos_S1x1_p0_0 0 0 rfl rfl, entry22 v73 shapeCasts_S1x2x2_S2x2 ![0, 1] slices_S2x2_o0_1_S1x1 inpos_S1x1_p0_0 0 1 rfl rfl,
    entry2 v75 shapeCasts_S1x2_S2 ![0] slices_S2_o0_S1 inpos_S1_p0 0 rfl]
  rfl

/-- Layer 2, unit 1: the bias added and the logistic function applied a part later. -/
theorem unit2_1 (v39 v40 : FVec Ideal S256x128 .f32) (v42 : FVec Ideal S2x2 .f32) (v44 : FVec Ideal S2 .f32) (v46 : Ideal .f32) (v73 : Vec Ideal S1x2x2 .f32) (v75 : Vec Ideal S1x2 .f32) (y : S256x128.Idx) :
    k0_pay19 (k0_pay16 v39 v40 v42 v44 v46 v73) (k0_pay17 v75) y = unit (k0_pay11 v39 v40 v42 v44 v46 y) (k0_pay12 v39 v40 v42 v44 y) (v73 (ix3 0 1 0)) (v73 (ix3 0 1 1)) (v75 (ix2 0 1)) := by
  simp only [k0_pay19, k0_pay16, k0_pay17, k0_pay13, k0_pay14, logistic, addf, mulf, broadcast]
  rw [entry22 v73 shapeCasts_S1x2x2_S2x2 ![1, 0] slices_S2x2_o1_0_S1x1 inpos_S1x1_p0_0 1 0 rfl rfl, entry22 v73 shapeCasts_S1x2x2_S2x2 ![1, 1] slices_S2x2_o1_1_S1x1 inpos_S1x1_p0_0 1 1 rfl rfl,
    entry2 v75 shapeCasts_S1x2_S2 ![1] slices_S2_o1_S1 inpos_S1_p0 1 rfl]
  rfl

/-- Layer 3, unit 0. -/
theorem unit3_0 (v95 v100 v101 : FVec Ideal S256x128 .f32) (v105 : Vec Ideal S1x2x2 .f32) (v107 : Vec Ideal S1x2 .f32) (y : S256x128.Idx) :
    k0_pay22 v95 v100 v101 v105 v107 y = unit (k0_pay18 v95 y) (k0_pay19 v100 v101 y) (v105 (ix3 0 0 0)) (v105 (ix3 0 0 1)) (v107 (ix2 0 0)) := by
  simp only [k0_pay22, k0_pay20, k0_pay21, logistic, addf, mulf, broadcast]
  rw [entry22 v105 shapeCasts_S1x2x2_S2x2 ![0, 0] slices_S2x2_o0_0_S1x1 inpos_S1x1_p0_0 0 0 rfl rfl, entry22 v105 shapeCasts_S1x2x2_S2x2 ![0, 1] slices_S2x2_o0_1_S1x1 inpos_S1x1_p0_0 0 1 rfl rfl,
    entry2 v107 shapeCasts_S1x2_S2 ![0] slices_S2_o0_S1 inpos_S1_p0 0 rfl]
  rfl

/-- Layer 3, unit 1. -/
theorem unit3_1 (v95 v100 v101 : FVec Ideal S256x128 .f32) (v105 : Vec Ideal S1x2x2 .f32) (v107 : Vec Ideal S1x2 .f32) (y : S256x128.Idx) :
    k0_pay23 v95 v100 v101 v105 v107 y = unit (k0_pay18 v95 y) (k0_pay19 v100 v101 y) (v105 (ix3 0 1 0)) (v105 (ix3 0 1 1)) (v107 (ix2 0 1)) := by
  simp only [k0_pay23, k0_pay20, k0_pay21, logistic, addf, mulf, broadcast]
  rw [entry22 v105 shapeCasts_S1x2x2_S2x2 ![1, 0] slices_S2x2_o1_0_S1x1 inpos_S1x1_p0_0 1 0 rfl rfl, entry22 v105 shapeCasts_S1x2x2_S2x2 ![1, 1] slices_S2x2_o1_1_S1x1 inpos_S1x1_p0_0 1 1 rfl rfl,
    entry2 v107 shapeCasts_S1x2_S2 ![1] slices_S2_o1_S1 inpos_S1_p0 1 rfl]
  rfl

/-- Layer 4, unit 0, its weights and bias taken out a part earlier. -/
theorem unit4_0 (v135 v136 : FVec Ideal S256x128 .f32) (v137 : Vec Ideal S1x2x2 .f32) (v139 : Vec Ideal S1x2 .f32) (y : S256x128.Idx) :
    k0_pay32 v135 v136 (k0_pay26 v137) (k0_pay27 v137) (k0_pay30 v139) y = unit (v135 y) (v136 y) (v137 (ix3 0 0 0)) (v137 (ix3 0 0 1)) (v139 (ix2 0 0)) := by
  simp only [k0_pay32, k0_pay26, k0_pay27, k0_pay30, k0_pay24, k0_pay25, logistic, addf, mulf, broadcast]
  rw [entry22 v137 shapeCasts_S1x2x2_S2x2 ![0, 0] slices_S2x2_o0_0_S1x1 inpos_S1x1_p0_0 0 0 rfl rfl, entry22 v137 shapeCasts_S1x2x2_S2x2 ![0, 1] slices_S2x2_o0_1_S1x1 inpos_S1x1_p0_0 0 1 rfl rfl,
    entry2 v139 shapeCasts_S1x2_S2 ![0] slices_S2_o0_S1 inpos_S1_p0 0 rfl]
  rfl

/-- Layer 4, unit 1. -/
theorem unit4_1 (v135 v136 : FVec Ideal S256x128 .f32) (v137 : Vec Ideal S1x2x2 .f32) (v139 : Vec Ideal S1x2 .f32) (y : S256x128.Idx) :
    k0_pay33 v135 v136 (k0_pay28 v137) (k0_pay29 v137) (k0_pay31 v139) y = unit (v135 y) (v136 y) (v137 (ix3 0 1 0)) (v137 (ix3 0 1 1)) (v139 (ix2 0 1)) := by
  simp only [k0_pay33, k0_pay28, k0_pay29, k0_pay31, k0_pay24, k0_pay25, logistic, addf, mulf, broadcast]
  rw [entry22 v137 shapeCasts_S1x2x2_S2x2 ![1, 0] slices_S2x2_o1_0_S1x1 inpos_S1x1_p0_0 1 0 rfl rfl, entry22 v137 shapeCasts_S1x2x2_S2x2 ![1, 1] slices_S2x2_o1_1_S1x1 inpos_S1x1_p0_0 1 1 rfl rfl,
    entry2 v139 shapeCasts_S1x2_S2 ![1] slices_S2_o1_S1 inpos_S1_p0 1 rfl]
  rfl

/-- Layer 5, unit 0. -/
theorem unit5_0 (v135 v136 : FVec Ideal S256x128 .f32) (v142 v144 v146 v148 v150 : Ideal .f32) (v151 : FVec Ideal S1 .f32) (v169 : Vec Ideal S1x2x2 .f32) (v171 : Vec Ideal S1x2 .f32) (y : S256x128.Idx) :
    k0_pay36 v135 v136 v142 v144 v146 v148 v150 v151 v169 v171 y = unit (k0_pay32 v135 v136 v142 v144 v150 y) (k0_pay33 v135 v136 v146 v148 v151 y) (v169 (ix3 0 0 0)) (v169 (ix3 0 0 1)) (v171 (ix2 0 0)) := by
  simp only [k0_pay36, k0_pay34, k0_pay35, logistic, addf, mulf, broadcast]
  rw [entry22 v169 shapeCasts_S1x2x2_S2x2 ![0, 0] slices_S2x2_o0_0_S1x1 inpos_S1x1_p0_0 0 0 rfl rfl, entry22 v169 shapeCasts_S1x2x2_S2x2 ![0, 1] slices_S2x2_o0_1_S1x1 inpos_S1x1_p0_0 0 1 rfl rfl,
    entry2 v171 shapeCasts_S1x2_S2 ![0] slices_S2_o0_S1 inpos_S1_p0 0 rfl]
  rfl

/-- Layer 5, unit 1. -/
theorem unit5_1 (v135 v136 : FVec Ideal S256x128 .f32) (v142 v144 v146 v148 v150 : Ideal .f32) (v151 : FVec Ideal S1 .f32) (v169 : Vec Ideal S1x2x2 .f32) (v171 : Vec Ideal S1x2 .f32) (y : S256x128.Idx) :
    k0_pay37 v135 v136 v142 v144 v146 v148 v150 v151 v169 v171 y = unit (k0_pay32 v135 v136 v142 v144 v150 y) (k0_pay33 v135 v136 v146 v148 v151 y) (v169 (ix3 0 1 0)) (v169 (ix3 0 1 1)) (v171 (ix2 0 1)) := by
  simp only [k0_pay37, k0_pay34, k0_pay35, logistic, addf, mulf, broadcast]
  rw [entry22 v169 shapeCasts_S1x2x2_S2x2 ![1, 0] slices_S2x2_o1_0_S1x1 inpos_S1x1_p0_0 1 0 rfl rfl, entry22 v169 shapeCasts_S1x2x2_S2x2 ![1, 1] slices_S2x2_o1_1_S1x1 inpos_S1x1_p0_0 1 1 rfl rfl,
    entry2 v171 shapeCasts_S1x2_S2 ![1] slices_S2_o1_S1 inpos_S1_p0 1 rfl]
  rfl

/-- Layer 6, unit 0. -/
theorem unit6_0 (v199 v200 : FVec Ideal S256x128 .f32) (v201 : Vec Ideal S1x2x2 .f32) (v203 : Vec Ideal S1x2 .f32) (y : S256x128.Idx) :
    k0_pay40 v199 v200 (k0_pay38 v201) v203 y = unit (v199 y) (v200 y) (v201 (ix3 0 0 0)) (v201 (ix3 0 0 1)) (v203 (ix2 0 0)) := by
  simp only [k0_pay40, k0_pay38, k0_pay39, logistic, addf, mulf, broadcast]
  rw [entry22 v201 shapeCasts_S1x2x2_S2x2 ![0, 0] slices_S2x2_o0_0_S1x1 inpos_S1x1_p0_0 0 0 rfl rfl, entry22 v201 shapeCasts_S1x2x2_S2x2 ![0, 1] slices_S2x2_o0_1_S1x1 inpos_S1x1_p0_0 0 1 rfl rfl,
    entry2 v203 shapeCasts_S1x2_S2 ![0] slices_S2_o0_S1 inpos_S1_p0 0 rfl]
  rfl

/-- Layer 6, unit 1. -/
theorem unit6_1 (v199 v200 : FVec Ideal S256x128 .f32) (v201 : Vec Ideal S1x2x2 .f32) (v203 : Vec Ideal S1x2 .f32) (y : S256x128.Idx) :
    k0_pay41 v199 v200 (k0_pay38 v201) v203 y = unit (v199 y) (v200 y) (v201 (ix3 0 1 0)) (v201 (ix3 0 1 1)) (v203 (ix2 0 1)) := by
  simp only [k0_pay41, k0_pay38, k0_pay39, logistic, addf, mulf, broadcast]
  rw [entry22 v201 shapeCasts_S1x2x2_S2x2 ![1, 0] slices_S2x2_o1_0_S1x1 inpos_S1x1_p0_0 1 0 rfl rfl, entry22 v201 shapeCasts_S1x2x2_S2x2 ![1, 1] slices_S2x2_o1_1_S1x1 inpos_S1x1_p0_0 1 1 rfl rfl,
    entry2 v203 shapeCasts_S1x2_S2 ![1] slices_S2_o1_S1 inpos_S1_p0 1 rfl]
  rfl

/-- The stored value: layer 7's two units (unit 0's affine form and parts of unit 1's computed a part earlier) and the head. -/
theorem out_apply (v231 v232 v199 v200 : FVec Ideal S256x128 .f32) (v202 : FVec Ideal S2x2 .f32) (v203 : Vec Ideal S1x2 .f32)
    (v233 : Vec Ideal S1x2x2 .f32) (v235 : Vec Ideal S1x2 .f32) (v265 : Vec Ideal S1x2 .f32) (v271 : Vec Ideal S1 .f32) (y : S256x128.Idx) :
    k0_pay1 v231 v232 (k0_pay44 v233) (k0_pay45 v235) (k0_pay46 v199 v200 v202 v203 v233 v235) (k0_pay47 v233) v265 v271 y
      = unit (unit (k0_pay40 v199 v200 v202 v203 y) (k0_pay41 v199 v200 v202 v203 y) (v233 (ix3 0 0 0)) (v233 (ix3 0 0 1)) (v235 (ix2 0 0)))
          (unit (v231 y) (v232 y) (v233 (ix3 0 1 0)) (v233 (ix3 0 1 1)) (v235 (ix2 0 1)))
          (v265 (ix2 0 0)) (v265 (ix2 0 1)) (v271 (ix1 0)) := by
  simp only [k0_pay1, k0_pay44, k0_pay45, k0_pay46, k0_pay47, k0_pay42, k0_pay43, logistic, addf, mulf, broadcast]
  rw [entry22 v233 shapeCasts_S1x2x2_S2x2 ![0, 0] slices_S2x2_o0_0_S1x1 inpos_S1x1_p0_0 0 0 rfl rfl, entry22 v233 shapeCasts_S1x2x2_S2x2 ![0, 1] slices_S2x2_o0_1_S1x1 inpos_S1x1_p0_0 0 1 rfl rfl,
    entry22 v233 shapeCasts_S1x2x2_S2x2 ![1, 0] slices_S2x2_o1_0_S1x1 inpos_S1x1_p0_0 1 0 rfl rfl, entry22 v233 shapeCasts_S1x2x2_S2x2 ![1, 1] slices_S2x2_o1_1_S1x1 inpos_S1x1_p0_0 1 1 rfl rfl,
    entry2 v235 shapeCasts_S1x2_S2 ![0] slices_S2_o0_S1 inpos_S1_p0 0 rfl, entry2 v235 shapeCasts_S1x2_S2 ![1] slices_S2_o1_S1 inpos_S1_p0 1 rfl,
    entry2 v265 shapeCasts_S1x2_S2 ![0] slices_S2_o0_S1 inpos_S1_p0 0 rfl, entry2 v265 shapeCasts_S1x2_S2 ![1] slices_S2_o1_S1 inpos_S1_p0 1 rfl, entry1 v271 inpos_S1_p0]
  rfl

end Units

/-! ## The stored strip is the network, element by element -/

/-- Two units over one pair are a layer of the specification. -/
theorem layer_pair (Ws : WsIdx → EReal) (bs : BsIdx → EReal) (l : Fin 8) (h : Fin 2 → EReal) (u0 u1 : EReal)
    (e0 : u0 = unit (h 0) (h 1) (Ws (ix3 l 0 0)) (Ws (ix3 l 0 1)) (bs (ix2 l 0)))
    (e1 : u1 = unit (h 0) (h 1) (Ws (ix3 l 1 0)) (Ws (ix3 l 1 1)) (bs (ix2 l 1))) :
    ![u0, u1] = layer Ws bs l h := by
  funext o
  match o with
  | ⟨0, _⟩ => exact e0
  | ⟨1, _⟩ => exact e1

/-- Element `y` of the stored strip is the network on the pair of elements `y` of the two loaded strips, when the loaded
    blocks of weights and biases are the blocks of the whole arrays `Ws`, `bs`, `W8`, `b8`. -/
theorem stripOut_apply (a1 a2 : Vec Ideal S256x128 .f32) (W0 W1 W2 W3 W4 W5 W6 W7 : Vec Ideal S1x2x2 .f32) (B0 B1 B2 B3 B4 B5 B6 B7 : Vec Ideal S1x2 .f32) (w8 : Vec Ideal S1x2 .f32) (b8v : Vec Ideal S1 .f32)
    (Ws : WsIdx → EReal) (bs : BsIdx → EReal) (W8 : W8Idx → EReal) (b8 : B8Idx → EReal)
    (hW0 : ∀ o i : Fin 2, W0 (ix3 0 o i) = Ws (ix3 0 o i)) (hB0 : ∀ o : Fin 2, B0 (ix2 0 o) = bs (ix2 0 o))
    (hW1 : ∀ o i : Fin 2, W1 (ix3 0 o i) = Ws (ix3 1 o i)) (hB1 : ∀ o : Fin 2, B1 (ix2 0 o) = bs (ix2 1 o))
    (hW2 : ∀ o i : Fin 2, W2 (ix3 0 o i) = Ws (ix3 2 o i)) (hB2 : ∀ o : Fin 2, B2 (ix2 0 o) = bs (ix2 2 o))
    (hW3 : ∀ o i : Fin 2, W3 (ix3 0 o i) = Ws (ix3 3 o i)) (hB3 : ∀ o : Fin 2, B3 (ix2 0 o) = bs (ix2 3 o))
    (hW4 : ∀ o i : Fin 2, W4 (ix3 0 o i) = Ws (ix3 4 o i)) (hB4 : ∀ o : Fin 2, B4 (ix2 0 o) = bs (ix2 4 o))
    (hW5 : ∀ o i : Fin 2, W5 (ix3 0 o i) = Ws (ix3 5 o i)) (hB5 : ∀ o : Fin 2, B5 (ix2 0 o) = bs (ix2 5 o))
    (hW6 : ∀ o i : Fin 2, W6 (ix3 0 o i) = Ws (ix3 6 o i)) (hB6 : ∀ o : Fin 2, B6 (ix2 0 o) = bs (ix2 6 o))
    (hW7 : ∀ o i : Fin 2, W7 (ix3 0 o i) = Ws (ix3 7 o i)) (hB7 : ∀ o : Fin 2, B7 (ix2 0 o) = bs (ix2 7 o))
    (hw8 : ∀ i : Fin 2, w8 (ix2 0 i) = W8 (ix2 0 i)) (hb8 : b8v (ix1 0) = b8 (ix1 0)) (y : S256x128.Idx) :
    stripOut a1 a2 W0 W1 W2 W3 W4 W5 W6 W7 B0 B1 B2 B3 B4 B5 B6 B7 w8 b8v y = net Ws bs W8 b8 ![a1 y, a2 y] := by
  have E0 : ![hid0_0 a1 a2 W0 W1 W2 W3 W4 W5 W6 W7 B0 B1 B2 B3 B4 B5 B6 B7 y, hid0_1 a1 a2 W0 W1 W2 W3 W4 W5 W6 W7 B0 B1 B2 B3 B4 B5 B6 B7 y] = layer Ws bs 0 ![a1 y, a2 y] :=
    layer_pair Ws bs 0 _ _ _ ((unit0_0 a1 a2 W0 B0 y).trans (by rw [hW0 0 0, hW0 0 1, hB0 0]; rfl))
      ((unit0_1 a1 a2 W0 B0 y).trans (by rw [hW0 1 0, hW0 1 1, hB0 1]; rfl))
  have E1 : ![hid1_0 a1 a2 W0 W1 W2 W3 W4 W5 W6 W7 B0 B1 B2 B3 B4 B5 B6 B7 y, hid1_1 a1 a2 W0 W1 W2 W3 W4 W5 W6 W7 B0 B1 B2 B3 B4 B5 B6 B7 y] = layer Ws bs 1 ![hid0_0 a1 a2 W0 W1 W2 W3 W4 W5 W6 W7 B0 B1 B2 B3 B4 B5 B6 B7 y, hid0_1 a1 a2 W0 W1 W2 W3 W4 W5 W6 W7 B0 B1 B2 B3 B4 B5 B6 B7 y] :=
    layer_pair Ws bs 1 _ _ _ ((unit1_0 (hid0_0 a1 a2 W0 W1 W2 W3 W4 W5 W6 W7 B0 B1 B2 B3 B4 B5 B6 B7) (hid0_1 a1 a2 W0 W1 W2 W3 W4 W5 W6 W7 B0 B1 B2 B3 B4 B5 B6 B7) W1 B1 y).trans (by rw [hW1 0 0, hW1 0 1, hB1 0]; rfl))
      ((unit1_1 (hid0_0 a1 a2 W0 W1 W2 W3 W4 W5 W6 W7 B0 B1 B2 B3 B4 B5 B6 B7) (hid0_1 a1 a2 W0 W1 W2 W3 W4 W5 W6 W7 B0 B1 B2 B3 B4 B5 B6 B7) W1 B1 y).trans (by rw [hW1 1 0, hW1 1 1, hB1 1]; rfl))
  have E2 : ![hid2_0 a1 a2 W0 W1 W2 W3 W4 W5 W6 W7 B0 B1 B2 B3 B4 B5 B6 B7 y, hid2_1 a1 a2 W0 W1 W2 W3 W4 W5 W6 W7 B0 B1 B2 B3 B4 B5 B6 B7 y] = layer Ws bs 2 ![hid1_0 a1 a2 W0 W1 W2 W3 W4 W5 W6 W7 B0 B1 B2 B3 B4 B5 B6 B7 y, hid1_1 a1 a2 W0 W1 W2 W3 W4 W5 W6 W7 B0 B1 B2 B3 B4 B5 B6 B7 y] :=
    layer_pair Ws bs 2 _ _ _ ((unit2_0 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7) (w1_00 a1 a2 W0 W1 W2 W3 W4 W5 W6 W7 B0 B1 B2 B3 B4 B5 B6 B7) W2 B2 y).trans (by rw [hW2 0 0, hW2 0 1, hB2 0]; rfl))
      ((unit2_1 (hid0_0 a1 a2 W0 W1 W2 W3 W4 W5 W6 W7 B0 B1 B2 B3 B4 B5 B6 B7) (hid0_1 a1 a2 W0 W1 W2 W3 W4 W5 W6 W7 B0 B1 B2 B3 B4 B5 B6 B7) (mat1 a1 a2 W0 W1 W2 W3 W4 W5 W6 W7 B0 B1 B2 B3 B4 B5 B6 B7) (bias1 a1 a2 W0 W1 W2 W3 W4 W5 W6 W7 B0 B1 B2 B3 B4 B5 B6 B7) (w1_00 a1 a2 W0 W1 W2 W3 W4 W5 W6 W7 B0 B1 B2 B3 B4 B5 B6 B7) W2 B2 y).trans (by rw [hW2 1 0, hW2 1 1, hB2 1]; rfl))
  have E3 : ![hid3_0 a1 a2 W0 W1 W2 W3 W4 W5 W6 W7 B0 B1 B2 B3 B4 B5 B6 B7 y, hid3_1 a1 a2 W0 W1 W2 W3 W4 W5 W6 W7 B0 B1 B2 B3 B4 B5 B6 B7 y] = layer Ws bs 3 ![hid2_0 a1 a2 W0 W1 W2 W3 W4 W5 W6 W7 B0 B1 B2 B3 B4 B5 B6 B7 y, hid2_1 a1 a2 W0 W1 W2 W3 W4 W5 W6 W7 B0 B1 B2 B3 B4 B5 B6 B7 y] :=
    layer_pair Ws bs 3 _ _ _ ((unit3_0 (pre2_0 a1 a2 W0 W1 W2 W3 W4 W5 W6 W7 B0 B1 B2 B3 B4 B5 B6 B7) (lin2_1 a1 a2 W0 W1 W2 W3 W4 W5 W6 W7 B0 B1 B2 B3 B4 B5 B6 B7) (bias2_1 a1 a2 W0 W1 W2 W3 W4 W5 W6 W7 B0 B1 B2 B3 B4 B5 B6 B7) W3 B3 y).trans (by rw [hW3 0 0, hW3 0 1, hB3 0]; rfl))
      ((unit3_1 (pre2_0 a1 a2 W0 W1 W2 W3 W4 W5 W6 W7 B0 B1 B2 B3 B4 B5 B6 B7) (lin2_1 a1 a2 W0 W1 W2 W3 W4 W5 W6 W7 B0 B1 B2 B3 B4 B5 B6 B7) (bias2_1 a1 a2 W0 W1 W2 W3 W4 W5 W6 W7 B0 B1 B2 B3 B4 B5 B6 B7) W3 B3 y).trans (by rw [hW3 1 0, hW3 1 1, hB3 1]; rfl))
  have E4 : ![hid4_0 a1 a2 W0 W1 W2 W3 W4 W5 W6 W7 B0 B1 B2 B3 B4 B5 B6 B7 y, hid4_1 a1 a2 W0 W1 W2 W3 W4 W5 W6 W7 B0 B1 B2 B3 B4 B5 B6 B7 y] = layer Ws bs 4 ![hid3_0 a1 a2 W0 W1 W2 W3 W4 W5 W6 W7 B0 B1 B2 B3 B4 B5 B6 B7 y, hid3_1 a1 a2 W0 W1 W2 W3 W4 W5 W6 W7 B0 B1 B2 B3 B4 B5 B6 B7 y] :=
    layer_pair Ws bs 4 _ _ _ ((unit4_0 (hid3_0 a1 a2 W0 W1 W2 W3 W4 W5 W6 W7 B0 B1 B2 B3 B4 B5 B6 B7) (hid3_1 a1 a2 W0 W1 W2 W3 W4 W5 W6 W7 B0 B1 B2 B3 B4 B5 B6 B7) W4 B4 y).trans (by rw [hW4 0 0, hW4 0 1, hB4 0]; rfl))
      ((unit4_1 (hid3_0 a1 a2 W0 W1 W2 W3 W4 W5 W6 W7 B0 B1 B2 B3 B4 B5 B6 B7) (hid3_1 a1 a2 W0 W1 W2 W3 W4 W5 W6 W7 B0 B1 B2 B3 B4 B5 B6 B7) W4 B4 y).trans (by rw [hW4 1 0, hW4 1 1, hB4 1]; rfl))
  have E5 : ![hid5_0 a1 a2 W0 W1 W2 W3 W4 W5 W6 W7 B0 B1 B2 B3 B4 B5 B6 B7 y, hid5_1 a1 a2 W0 W1 W2 W3 W4 W5 W6 W7 B0 B1 B2 B3 B4 B5 B6 B7 y] = layer Ws bs 5 ![hid4_0 a1 a2 W0 W1 W2 W3 W4 W5 W6 W7 B0 B1 B2 B3 B4 B5 B6 B7 y, hid4_1 a1 a2 W0 W1 W2 W3 W4 W5 W6 W7 B0 B1 B2 B3 B4 B5 B6 B7 y] :=
    layer_pair Ws bs 5 _ _ _ ((unit5_0 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_00 a1 a2 W0 W1 W2 W3 W4 W5 W6 W7 B0 B1 B2 B3 B4 B5 B6 B7) (w4_01 a1 a2 W0 W1 W2 W3 W4 W5 W6 W7 B0 B1 B2 B3 B4 B5 B6 B7) (w4_10 a1 a2 W0 W1 W2 W3 W4 W5 W6 W7 B0 B1 B2 B3 B4 B5 B6 B7) (w4_11 a1 a2 W0 W1 W2 W3 W4 W5 W6 W7 B0 B1 B2 B3 B4 B5 B6 B7) (b4_0 a1 a2 W0 W1 W2 W3 W4 W5 W6 W7 B0 B1 B2 B3 B4 B5 B6 B7) (b4_1 a1 a2 W0 W1 W2 W3 W4 W5 W6 W7 B0 B1 B2 B3 B4 B5 B6 B7) W5 B5 y).trans (by rw [hW5 0 0, hW5 0 1, hB5 0]; rfl))
      ((unit5_1 (hid3_0 a1 a2 W0 W1 W2 W3 W4 W5 W6 W7 B0 B1 B2 B3 B4 B5 B6 B7) (hid3_1 a1 a2 W0 W1 W2 W3 W4 W5 W6 W7 B0 B1 B2 B3 B4 B5 B6 B7) (w4_00 a1 a2 W0 W1 W2 W3 W4 W5 W6 W7 B0 B1 B2 B3 B4 B5 B6 B7) (w4_01 a1 a2 W0 W1 W2 W3 W4 W5 W6 W7 B0 B1 B2 B3 B4 B5 B6 B7) (w4_10 a1 a2 W0 W1 W2 W3 W4 W5 W6 W7 B0 B1 B2 B3 B4 B5 B6 B7) (w4_11 a1 a2 W0 W1 W2 W3 W4 W5 W6 W7 B0 B1 B2 B3 B4 B5 B6 B7) (b4_0 a1 a2 W0 W1 W2 W3 W4 W5 W6 W7 B0 B1 B2 B3 B4 B5 B6 B7) (b4_1 a1 a2 W0 W1 W2 W3 W4 W5 W6 W7 B0 B1 B2 B3 B4 B5 B6 B7) W5 B5 y).trans (by rw [hW5 1 0, hW5 1 1, hB5 1]; rfl))
  have E6 : ![hid6_0 a1 a2 W0 W1 W2 W3 W4 W5 W6 W7 B0 B1 B2 B3 B4 B5 B6 B7 y, hid6_1 a1 a2 W0 W1 W2 W3 W4 W5 W6 W7 B0 B1 B2 B3 B4 B5 B6 B7 y] = layer Ws bs 6 ![hid5_0 a1 a2 W0 W1 W2 W3 W4 W5 W6 W7 B0 B1 B2 B3 B4 B5 B6 B7 y, hid5_1 a1 a2 W0 W1 W2 W3 W4 W5 W6 W7 B0 B1 B2 B3 B4 B5 B6 B7 y] :=
    layer_pair Ws bs 6 _ _ _ ((unit6_0 (hid5_0 a1 a2 W0 W1 W2 W3 W4 W5 W6 W7 B0 B1 B2 B3 B4 B5 B6 B7) (hid5_1 a1 a2 W0 W1 W2 W3 W4 W5 W6 W7 B0 B1 B2 B3 B4 B5 B6 B7) W6 B6 y).trans (by rw [hW6 0 0, hW6 0 1, hB6 0]; rfl))
      ((unit6_1 (hid5_0 a1 a2 W0 W1 W2 W3 W4 W5 W6 W7 B0 B1 B2 B3 B4 B5 B6 B7) (hid5_1 a1 a2 W0 W1 W2 W3 W4 W5 W6 W7 B0 B1 B2 B3 B4 B5 B6 B7) W6 B6 y).trans (by rw [hW6 1 0, hW6 1 1, hB6 1]; rfl))
  have E7 : ![unit (hid6_0 a1 a2 W0 W1 W2 W3 W4 W5 W6 W7 B0 B1 B2 B3 B4 B5 B6 B7 y) (hid6_1 a1 a2 W0 W1 W2 W3 W4 W5 W6 W7 B0 B1 B2 B3 B4 B5 B6 B7 y) (W7 (ix3 0 0 0)) (W7 (ix3 0 0 1)) (B7 (ix2 0 0)),
        unit (hid6_0 a1 a2 W0 W1 W2 W3 W4 W5 W6 W7 B0 B1 B2 B3 B4 B5 B6 B7 y) (hid6_1 a1 a2 W0 W1 W2 W3 W4 W5 W6 W7 B0 B1 B2 B3 B4 B5 B6 B7 y) (W7 (ix3 0 1 0)) (W7 (ix3 0 1 1)) (B7 (ix2 0 1))]
      = layer Ws bs 7 ![hid6_0 a1 a2 W0 W1 W2 W3 W4 W5 W6 W7 B0 B1 B2 B3 B4 B5 B6 B7 y, hid6_1 a1 a2 W0 W1 W2 W3 W4 W5 W6 W7 B0 B1 B2 B3 B4 B5 B6 B7 y] :=
    layer_pair Ws bs 7 _ _ _ (by rw [hW7 0 0, hW7 0 1, hB7 0]; rfl) (by rw [hW7 1 0, hW7 1 1, hB7 1]; rfl)
  unfold net hidden
  rw [← E0, ← E1, ← E2, ← E3, ← E4, ← E5, ← E6, ← E7]
  refine (out_apply (hid6_0 a1 a2 W0 W1 W2 W3 W4 W5 W6 W7 B0 B1 B2 B3 B4 B5 B6 B7) (hid6_1 a1 a2 W0 W1 W2 W3 W4 W5 W6 W7 B0 B1 B2 B3 B4 B5 B6 B7) (hid5_0 a1 a2 W0 W1 W2 W3 W4 W5 W6 W7 B0 B1 B2 B3 B4 B5 B6 B7) (hid5_1 a1 a2 W0 W1 W2 W3 W4 W5 W6 W7 B0 B1 B2 B3 B4 B5 B6 B7) (mat6 a1 a2 W0 W1 W2 W3 W4 W5 W6 W7 B0 B1 B2 B3 B4 B5 B6 B7) B6 W7 B7 w8 b8v y).trans ?_
  rw [hw8 0, hw8 1, hb8]
  rfl

end Cert.Mlp.Strip

end
-- ==== Proof.Block.lean ====
import proofs.«122481_j37615323578711_2_alg».proof.Proof.Gen.KernelIdeal.Frame
import proofs.«122481_j37615323578711_2_alg».proof.Proof.StripValue

/-!
# A whole block of the kernel's output

At one grid point the kernel's body runs sixteen trips of its loop; trip `k` loads rows `256 k … 256 k + 255` of the
two feature blocks and stores the same rows of the output block. Each stored strip is the network applied element by
element (the strip module), so every store agrees with ONE function of the block index — element `y` of the output
block is the network on the pair of elements `y` of the two feature blocks — and the sixteen strips cover the block.
Hence the output block IS that function.
-/

set_option maxRecDepth 16384

noncomputable section

namespace Cert.Mlp.Block

open Idealize.ShloMosaic Idealize.ShloMosaic.ValueIdx Idealize.ShloMosaic.TcCoe Idealize.SL.Sem
open Cert.KernelIdeal Cert.KernelIdeal.Gen Cert.Mlp Cert.Mlp.Strip

/-- The rows trip `k` loads and stores: 256 of them from row `256 k`, all 128 lanes. -/
abbrev strip (k : Fin k0_t1_loop.trips) : Rect S4096x128 :=
  Rect.unit (s := S4096x128) (k0_off1 k) S256x128.size (k0_off1_inb k)

/-- Layer `l`'s weights in the stacked array: the `[1, 2, 2]` block at `(l, 0, 0)`; its bias: the `[1, 2]` block at `(l, 0)`. -/
abbrev rectW0 : Rect S8x2x2 := Rect.unit (s := S8x2x2) ![0, 0, 0] S1x2x2.size inb_S8x2x2_S1x2x2_0_0_0
abbrev rectB0 : Rect S8x2 := Rect.unit (s := S8x2) ![0, 0] S1x2.size inb_S8x2_S1x2_0_0
abbrev rectW1 : Rect S8x2x2 := Rect.unit (s := S8x2x2) ![1, 0, 0] S1x2x2.size inb_S8x2x2_S1x2x2_1_0_0
abbrev rectB1 : Rect S8x2 := Rect.unit (s := S8x2) ![1, 0] S1x2.size inb_S8x2_S1x2_1_0
abbrev rectW2 : Rect S8x2x2 := Rect.unit (s := S8x2x2) ![2, 0, 0] S1x2x2.size inb_S8x2x2_S1x2x2_2_0_0
abbrev rectB2 : Rect S8x2 := Rect.unit (s := S8x2) ![2, 0] S1x2.size inb_S8x2_S1x2_2_0
abbrev rectW3 : Rect S8x2x2 := Rect.unit (s := S8x2x2) ![3, 0, 0] S1x2x2.size inb_S8x2x2_S1x2x2_3_0_0
abbrev rectB3 : Rect S8x2 := Rect.unit (s := S8x2) ![3, 0] S1x2.size inb_S8x2_S1x2_3_0
abbrev rectW4 : Rect S8x2x2 := Rect.unit (s := S8x2x2) ![4, 0, 0] S1x2x2.size inb_S8x2x2_S1x2x2_4_0_0
abbrev rectB4 : Rect S8x2 := Rect.unit (s := S8x2) ![4, 0] S1x2.size inb_S8x2_S1x2_4_0
abbrev rectW5 : Rect S8x2x2 := Rect.unit (s := S8x2x2) ![5, 0, 0] S1x2x2.size inb_S8x2x2_S1x2x2_5_0_0
abbrev rectB5 : Rect S8x2 := Rect.unit (s := S8x2) ![5, 0] S1x2.size inb_S8x2_S1x2_5_0
abbrev rectW6 : Rect S8x2x2 := Rect.unit (s := S8x2x2) ![6, 0, 0] S1x2x2.size inb_S8x2x2_S1x2x2_6_0_0
abbrev rectB6 : Rect S8x2 := Rect.unit (s := S8x2) ![6, 0] S1x2.size inb_S8x2_S1x2_6_0
abbrev rectW7 : Rect S8x2x2 := Rect.unit (s := S8x2x2) ![7, 0, 0] S1x2x2.size inb_S8x2x2_S1x2x2_7_0_0
abbrev rectB7 : Rect S8x2 := Rect.unit (s := S8x2) ![7, 0] S1x2.size inb_S8x2_S1x2_7_0
/-- The head's weights and bias, whole. -/
abbrev rectW8 : Rect S1x2 := Rect.unit (s := S1x2) ![0, 0] S1x2.size inb_S1x2_S1x2_0_0
abbrev rectB8 : Rect S1 := Rect.unit (s := S1) ![0] S1.size inb_S1_S1_0

section Trip
variable {F : FTy → Type} [FloatOps F]

/-- What one trip stores: one strip, the named value of the strip module over the trip's loads. -/
theorem tripL_eq (𝒱 : Variants) (bd : Option 𝒱.V) (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x2x2 .f32) (harg3 : arg3.IsWhole) (arg4 : Memref sig .tc .vmem S8x2 .f32) (harg4 : arg4.IsWhole) (arg5 : Memref sig .tc .vmem S1x2 .f32) (harg5 : arg5.IsWhole) (arg6 : Memref sig .tc .vmem S1 .f32) (harg6 : arg6.IsWhole) (arg7 : Memref sig .tc .vmem S4096x128 .f32) (harg7 : arg7.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    tripL_k0_t1 (F := F) 𝒱 c bd i arg1 harg1 arg2 harg2 arg3 harg3 arg4 harg4 arg5 harg5 arg6 harg6 arg7 harg7 X_arg1 X_arg2 X_arg3 X_arg4 X_arg5 X_arg6 k
      = [⟨strip k, stripOut (View.readAt (Elt F) arg1.view (strip k).toLoadRect X_arg1) (View.readAt (Elt F) arg2.view (strip k).toLoadRect X_arg2)
          (View.readAt (Elt F) arg3.view rectW0.toLoadRect X_arg3) (View.readAt (Elt F) arg3.view rectW1.toLoadRect X_arg3) (View.readAt (Elt F) arg3.view rectW2.toLoadRect X_arg3) (View.readAt (Elt F) arg3.view rectW3.toLoadRect X_arg3) (View.readAt (Elt F) arg3.view rectW4.toLoadRect X_arg3) (View.readAt (Elt F) arg3.view rectW5.toLoadRect X_arg3) (View.readAt (Elt F) arg3.view rectW6.toLoadRect X_arg3) (View.readAt (Elt F) arg3.view rectW7.toLoadRect X_arg3)
          (View.readAt (Elt F) arg4.view rectB0.toLoadRect X_arg4) (View.readAt (Elt F) arg4.view rectB1.toLoadRect X_arg4) (View.readAt (Elt F) arg4.view rectB2.toLoadRect X_arg4) (View.readAt (Elt F) arg4.view rectB3.toLoadRect X_arg4) (View.readAt (Elt F) arg4.view rectB4.toLoadRect X_arg4) (View.readAt (Elt F) arg4.view rectB5.toLoadRect X_arg4) (View.readAt (Elt F) arg4.view rectB6.toLoadRect X_arg4) (View.readAt (Elt F) arg4.view rectB7.toLoadRect X_arg4)
          (View.readAt (Elt F) arg5.view rectW8.toLoadRect X_arg5) (View.readAt (Elt F) arg6.view rectB8.toLoadRect X_arg6)⟩] := by
  unfold tripL_k0_t1 trip_k0_t1
  rfl

/-- A load through a rectangle of a whole staging buffer holding `X` reads `X` at the rectangle's indices. -/
theorem load_eq {s : Shape} {e : EltTy} (m : Memref sig .tc .vmem s e) (h : m.IsWhole) (X : s.Idx → Elt F e) (r : Rect s) :
    View.readAt (Elt F) m.view r.toLoadRect (h.unread X) = View.ld X r := by
  rw [View.readAt_eq_ld, h.read_unread]

end Trip

/-! ## The loaded weights are the arrays' entries -/

section Loads
variable (x2 : Vec Ideal S8x2x2 .f32) (x3 : Vec Ideal S8x2 .f32) (x4 : Vec Ideal S1x2 .f32) (x5 : Vec Ideal S1 .f32)

theorem ldW0 (o i : Fin 2) : View.ld x2 rectW0 (ix3 0 o i) = x2 (ix3 0 o i) :=
  congrArg x2 (idx3_ext _ _ (by show 0 + 1 * 0 = 0; rfl) (by show 0 + 1 * o.val = o.val; omega) (by show 0 + 1 * i.val = i.val; omega))
theorem ldB0 (o : Fin 2) : View.ld x3 rectB0 (ix2 0 o) = x3 (ix2 0 o) :=
  congrArg x3 (idx2_ext _ _ (by show 0 + 1 * 0 = 0; rfl) (by show 0 + 1 * o.val = o.val; omega))
theorem ldW1 (o i : Fin 2) : View.ld x2 rectW1 (ix3 0 o i) = x2 (ix3 1 o i) :=
  congrArg x2 (idx3_ext _ _ (by show 1 + 1 * 0 = 1; rfl) (by show 0 + 1 * o.val = o.val; omega) (by show 0 + 1 * i.val = i.val; omega))
theorem ldB1 (o : Fin 2) : View.ld x3 rectB1 (ix2 0 o) = x3 (ix2 1 o) :=
  congrArg x3 (idx2_ext _ _ (by show 1 + 1 * 0 = 1; rfl) (by show 0 + 1 * o.val = o.val; omega))
theorem ldW2 (o i : Fin 2) : View.ld x2 rectW2 (ix3 0 o i) = x2 (ix3 2 o i) :=
  congrArg x2 (idx3_ext _ _ (by show 2 + 1 * 0 = 2; rfl) (by show 0 + 1 * o.val = o.val; omega) (by show 0 + 1 * i.val = i.val; omega))
theorem ldB2 (o : Fin 2) : View.ld x3 rectB2 (ix2 0 o) = x3 (ix2 2 o) :=
  congrArg x3 (idx2_ext _ _ (by show 2 + 1 * 0 = 2; rfl) (by show 0 + 1 * o.val = o.val; omega))
theorem ldW3 (o i : Fin 2) : View.ld x2 rectW3 (ix3 0 o i) = x2 (ix3 3 o i) :=
  congrArg x2 (idx3_ext _ _ (by show 3 + 1 * 0 = 3; rfl) (by show 0 + 1 * o.val = o.val; omega) (by show 0 + 1 * i.val = i.val; omega))
theorem ldB3 (o : Fin 2) : View.ld x3 rectB3 (ix2 0 o) = x3 (ix2 3 o) :=
  congrArg x3 (idx2_ext _ _ (by show 3 + 1 * 0 = 3; rfl) (by show 0 + 1 * o.val = o.val; omega))
theorem ldW4 (o i : Fin 2) : View.ld x2 rectW4 (ix3 0 o i) = x2 (ix3 4 o i) :=
  congrArg x2 (idx3_ext _ _ (by show 4 + 1 * 0 = 4; rfl) (by show 0 + 1 * o.val = o.val; omega) (by show 0 + 1 * i.val = i.val; omega))
theorem ldB4 (o : Fin 2) : View.ld x3 rectB4 (ix2 0 o) = x3 (ix2 4 o) :=
  congrArg x3 (idx2_ext _ _ (by show 4 + 1 * 0 = 4; rfl) (by show 0 + 1 * o.val = o.val; omega))
theorem ldW5 (o i : Fin 2) : View.ld x2 rectW5 (ix3 0 o i) = x2 (ix3 5 o i) :=
  congrArg x2 (idx3_ext _ _ (by show 5 + 1 * 0 = 5; rfl) (by show 0 + 1 * o.val = o.val; omega) (by show 0 + 1 * i.val = i.val; omega))
theorem ldB5 (o : Fin 2) : View.ld x3 rectB5 (ix2 0 o) = x3 (ix2 5 o) :=
  congrArg x3 (idx2_ext _ _ (by show 5 + 1 * 0 = 5; rfl) (by show 0 + 1 * o.val = o.val; omega))
theorem ldW6 (o i : Fin 2) : View.ld x2 rectW6 (ix3 0 o i) = x2 (ix3 6 o i) :=
  congrArg x2 (idx3_ext _ _ (by show 6 + 1 * 0 = 6; rfl) (by show 0 + 1 * o.val = o.val; omega) (by show 0 + 1 * i.val = i.val; omega))
theorem ldB6 (o : Fin 2) : View.ld x3 rectB6 (ix2 0 o) = x3 (ix2 6 o) :=
  congrArg x3 (idx2_ext _ _ (by show 6 + 1 * 0 = 6; rfl) (by show 0 + 1 * o.val = o.val; omega))
theorem ldW7 (o i : Fin 2) : View.ld x2 rectW7 (ix3 0 o i) = x2 (ix3 7 o i) :=
  congrArg x2 (idx3_ext _ _ (by show 7 + 1 * 0 = 7; rfl) (by show 0 + 1 * o.val = o.val; omega) (by show 0 + 1 * i.val = i.val; omega))
theorem ldB7 (o : Fin 2) : View.ld x3 rectB7 (ix2 0 o) = x3 (ix2 7 o) :=
  congrArg x3 (idx2_ext _ _ (by show 7 + 1 * 0 = 7; rfl) (by show 0 + 1 * o.val = o.val; omega))
theorem ldW8 (i : Fin 2) : View.ld x4 rectW8 (ix2 0 i) = x4 (ix2 0 i) :=
  congrArg x4 (idx2_ext _ _ (by show 0 + 1 * 0 = 0; rfl) (by show 0 + 1 * i.val = i.val; omega))
theorem ldB8 : View.ld x5 rectB8 (ix1 0) = x5 (ix1 0) :=
  congrArg x5 (idx1_ext _ _ (by show 0 + 1 * 0 = 0; rfl))

end Loads

/-- Element `y` of an output block: the network on the pair of elements `y` of the two feature blocks. -/
def blockVal (x0 x1 : Vec Ideal S4096x128 .f32) (x2 : Vec Ideal S8x2x2 .f32) (x3 : Vec Ideal S8x2 .f32) (x4 : Vec Ideal S1x2 .f32) (x5 : Vec Ideal S1 .f32) : S4096x128.Idx → Elt Ideal .f32 :=
  fun y => net x2 x3 x4 x5 ![x0 y, x1 y]

/-- The strip trip `k` stores, over loads of blocks `x0 … x5`, is that function on the trip's rows. -/
theorem strip_val (x0 x1 : Vec Ideal S4096x128 .f32) (x2 : Vec Ideal S8x2x2 .f32) (x3 : Vec Ideal S8x2 .f32) (x4 : Vec Ideal S1x2 .f32) (x5 : Vec Ideal S1 .f32) (k : Fin k0_t1_loop.trips) (x : S256x128.Idx) :
    stripOut (View.ld x0 (strip k)) (View.ld x1 (strip k))
        (View.ld x2 rectW0) (View.ld x2 rectW1) (View.ld x2 rectW2) (View.ld x2 rectW3) (View.ld x2 rectW4) (View.ld x2 rectW5) (View.ld x2 rectW6) (View.ld x2 rectW7)
        (View.ld x3 rectB0) (View.ld x3 rectB1) (View.ld x3 rectB2) (View.ld x3 rectB3) (View.ld x3 rectB4) (View.ld x3 rectB5) (View.ld x3 rectB6) (View.ld x3 rectB7)
        (View.ld x4 rectW8) (View.ld x5 rectB8) x
      = blockVal x0 x1 x2 x3 x4 x5 ((strip k).emb x) :=
  stripOut_apply (View.ld x0 (strip k)) (View.ld x1 (strip k))
    (View.ld x2 rectW0) (View.ld x2 rectW1) (View.ld x2 rectW2) (View.ld x2 rectW3) (View.ld x2 rectW4) (View.ld x2 rectW5) (View.ld x2 rectW6) (View.ld x2 rectW7)
    (View.ld x3 rectB0) (View.ld x3 rectB1) (View.ld x3 rectB2) (View.ld x3 rectB3) (View.ld x3 rectB4) (View.ld x3 rectB5) (View.ld x3 rectB6) (View.ld x3 rectB7)
    (View.ld x4 rectW8) (View.ld x5 rectB8) x2 x3 x4 x5
    (ldW0 x2) (ldB0 x3) (ldW1 x2) (ldB1 x3) (ldW2 x2) (ldB2 x3) (ldW3 x2) (ldB3 x3) (ldW4 x2) (ldB4 x3) (ldW5 x2) (ldB5 x3) (ldW6 x2) (ldB6 x3) (ldW7 x2) (ldB7 x3)
    (ldW8 x4) (ldB8 x5) x

/-- The one piece trip `k` stores, from staging buffers holding the blocks, agrees with that function. -/
theorem trip_agrees (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x2x2 .f32) (harg3 : arg3.IsWhole) (arg4 : Memref sig .tc .vmem S8x2 .f32) (harg4 : arg4.IsWhole) (arg5 : Memref sig .tc .vmem S1x2 .f32) (harg5 : arg5.IsWhole) (arg6 : Memref sig .tc .vmem S1 .f32) (harg6 : arg6.IsWhole) (arg7 : Memref sig .tc .vmem S4096x128 .f32) (harg7 : arg7.IsWhole) (x0 x1 : Vec Ideal S4096x128 .f32) (x2 : Vec Ideal S8x2x2 .f32) (x3 : Vec Ideal S8x2 .f32) (x4 : Vec Ideal S1x2 .f32) (x5 : Vec Ideal S1 .f32) (k : Fin k0_t1_loop.trips) :
    ∀ p ∈ tripL_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) k,
      ∀ x : p.1.shape.Idx, p.2 x = blockVal x0 x1 x2 x3 x4 x5 (p.1.emb x) := by
  rw [tripL_eq (F := Ideal) Variants.none none c i arg1 harg1 arg2 harg2 arg3 harg3 arg4 harg4 arg5 harg5 arg6 harg6 arg7 harg7 (harg1.unread x0) (harg2.unread x1) (harg3.unread x2) (harg4.unread x3) (harg5.unread x4) (harg6.unread x5) k,
    load_eq arg1 harg1 x0 (strip k), load_eq arg2 harg2 x1 (strip k),
    load_eq arg3 harg3 x2 rectW0, load_eq arg4 harg4 x3 rectB0,
    load_eq arg3 harg3 x2 rectW1, load_eq arg4 harg4 x3 rectB1,
    load_eq arg3 harg3 x2 rectW2, load_eq arg4 harg4 x3 rectB2,
    load_eq arg3 harg3 x2 rectW3, load_eq arg4 harg4 x3 rectB3,
    load_eq arg3 harg3 x2 rectW4, load_eq arg4 harg4 x3 rectB4,
    load_eq arg3 harg3 x2 rectW5, load_eq arg4 harg4 x3 rectB5,
    load_eq arg3 harg3 x2 rectW6, load_eq arg4 harg4 x3 rectB6,
    load_eq arg3 harg3 x2 rectW7, load_eq arg4 harg4 x3 rectB7,
    load_eq arg5 harg5 x4 rectW8, load_eq arg6 harg6 x5 rectB8]
  intro p hp
  rw [List.mem_singleton] at hp
  subst hp
  exact strip_val x0 x1 x2 x3 x4 x5 k

/-- So do the strips of all the trips before the `n`-th. -/
theorem trips_agree (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x2x2 .f32) (harg3 : arg3.IsWhole) (arg4 : Memref sig .tc .vmem S8x2 .f32) (harg4 : arg4.IsWhole) (arg5 : Memref sig .tc .vmem S1x2 .f32) (harg5 : arg5.IsWhole) (arg6 : Memref sig .tc .vmem S1 .f32) (harg6 : arg6.IsWhole) (arg7 : Memref sig .tc .vmem S4096x128 .f32) (harg7 : arg7.IsWhole) (x0 x1 : Vec Ideal S4096x128 .f32) (x2 : Vec Ideal S8x2x2 .f32) (x3 : Vec Ideal S8x2 .f32) (x4 : Vec Ideal S1x2 .f32) (x5 : Vec Ideal S1 .f32) :
    ∀ n, n ≤ k0_t1_loop.trips → ∀ p ∈ pb_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) n,
      ∀ x : p.1.shape.Idx, p.2 x = blockVal x0 x1 x2 x3 x4 x5 (p.1.emb x)
  | 0, _ => by
    intro p hp
    rw [pb_k0_t1.eq_1] at hp
    exact absurd hp List.not_mem_nil
  | n + 1, hn => by
    intro p hp
    have e : pb_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) (n + 1)
        = tripL_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) ⟨n, hn⟩
          ++ pb_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) n :=
      pb_k0_t1_succ (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) ⟨n, hn⟩
    rw [e] at hp
    rcases List.mem_append.mp hp with h | h
    · exact trip_agrees c i arg1 harg1 arg2 harg2 arg3 harg3 arg4 harg4 arg5 harg5 arg6 harg6 arg7 harg7 x0 x1 x2 x3 x4 x5 ⟨n, hn⟩ p h
    · exact trips_agree c i arg1 harg1 arg2 harg2 arg3 harg3 arg4 harg4 arg5 harg5 arg6 harg6 arg7 harg7 x0 x1 x2 x3 x4 x5 n (Nat.le_of_succ_le hn) p h

/-- THE BLOCK: what the body leaves in the output's staging buffer is the network, element by element, of the input blocks. -/
theorem block_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S8x2x2 .f32) (harg3 : arg3.IsWhole) (arg4 : Memref sig .tc .vmem S8x2 .f32) (harg4 : arg4.IsWhole) (arg5 : Memref sig .tc .vmem S1x2 .f32) (harg5 : arg5.IsWhole) (arg6 : Memref sig .tc .vmem S1 .f32) (harg6 : arg6.IsWhole) (arg7 : Memref sig .tc .vmem S4096x128 .f32) (harg7 : arg7.IsWhole) (x0 x1 : Vec Ideal S4096x128 .f32) (x2 : Vec Ideal S8x2x2 .f32) (x3 : Vec Ideal S8x2 .f32) (x4 : Vec Ideal S1x2 .f32) (x5 : Vec Ideal S1 .f32) :
    out0_A_6 (F := Ideal) c i arg1 harg1 arg2 harg2 arg3 harg3 arg4 harg4 arg5 harg5 arg6 harg6 arg7 harg7 x0 x1 x2 x3 x4 x5 = blockVal x0 x1 x2 x3 x4 x5 := by
  funext y
  have hG : ∀ p ∈ (kernelRun0_A (F := Ideal) c i arg1 harg1 arg2 harg2 arg3 harg3 arg4 harg4 arg5 harg5 arg6 harg6 arg7 harg7 x0 x1 x2 x3 x4 x5).1,
      ∀ x : p.1.shape.Idx, p.2 x = blockVal x0 x1 x2 x3 x4 x5 (p.1.emb x) := by
    have hL : (kernelRun0_A (F := Ideal) c i arg1 harg1 arg2 harg2 arg3 harg3 arg4 harg4 arg5 harg5 arg6 harg6 arg7 harg7 x0 x1 x2 x3 x4 x5).1
        = pb_k0_t1 (F := Ideal) Variants.none c none i arg1 harg1 arg2 harg2 arg3 harg3 arg4 harg4 arg5 harg5 arg6 harg6 arg7 harg7 (harg1.unread x0) (harg2.unread x1) (harg3.unread x2) (harg4.unread x3) (harg5.unread x4) (harg6.unread x5) k0_t1_loop.trips := by
      unfold kernelRun0_A
      rfl
    rw [hL]
    exact trips_agree c i arg1 harg1 arg2 harg2 arg3 harg3 arg4 harg4 arg5 harg5 arg6 harg6 arg7 harg7 x0 x1 x2 x3 x4 x5 _ (le_refl _)
  unfold out0_A_6
  exact View.read_writes_apply_of_pieces VO0_6 _ (blockVal x0 x1 x2 x3 x4 x5) _ hG y
    (cover0_A_6 c i arg1 harg1 arg2 harg2 arg3 harg3 arg4 harg4 arg5 harg5 arg6 harg6 arg7 harg7 x0 x1 x2 x3 x4 x5 y)

end Cert.Mlp.Block

end
-- ==== Proof.KernelValue.lean ====
import proofs.«122481_j37615323578711_2_alg».proof.Proof.Gen.KernelIdeal.Frame
import proofs.«122481_j37615323578711_2_alg».proof.Proof.Block
import Idealize.ShloMosaic.Lib.StableHlo.Run
import Idealize.ShloMosaic.Lib.Pipeline.Value

/-!
# The kernel's result array

Before the region the host lays the two features of the input out as two `[65536, 128]` planes: element
`(r, l)` of plane `f` is feature `f` of input row `128 r + l`. The region's grid has sixteen points; point `t` works
on rows `4096 t … 4096 t + 4095` of the planes and of the output plane, with the weights whole at every point, and
leaves in its output block the network element by element (the block module). The sixteen blocks tile the output
plane, so element `(r, l)` of it is the network on input row `128 r + l`; the host then views the plane as one
column `[8388608, 1]`, whose row `b` is plane element `(b / 128, b % 128)`, that is, the network on input row `b`.
-/

set_option maxRecDepth 16384

noncomputable section

namespace Cert.Mlp.Kernel

open Idealize.ShloMosaic Idealize.ShloMosaic.ValueIdx Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen Cert.Mlp Cert.Mlp.Block

variable (m : (ℓ : Loc nD τ sig) → Buf (Elt Ideal) ℓ) (ρ : Dev nD → PrngReg)

/-- The input row that element `(r, l)` of a plane holds: `128 r + l`. -/
def flat (j : S65536x128.Idx) : Fin 8388608 :=
  ⟨(j 0).val * 128 + (j 1).val, by
    have h0 : (j 0).val < 65536 := (j 0).isLt
    have h1 : (j 1).val < 128 := (j 1).isLt
    omega⟩

/-! ## The planes the host hands the region -/

/-- Plane 0 at `j`: feature 0 of input row `flat j` (transpose, first row, two views). -/
theorem plane0 (c : Dev nD) (j : S65536x128.Idx) :
    V m c main_v3 j = (m ((c : Thread nD τ).loc main_arg0)) (ix2 (flat j) 0) := by
  have e : (V m c main_v3 : S65536x128.Idx → Elt Ideal .f32)
      = shapeCast S65536x128 (shapeCast S8388608 (extractStridedSlice S1x8388608 ![0, 0]
          (transpose S2x8388608 [1, 0] (m ((c : Thread nD τ).loc main_arg0)) transposes_S8388608x2_S2x8388608_1_0)
          slices_S2x8388608_S1x8388608_0_0) shapeCasts_S1x8388608_S8388608) shapeCasts_S8388608_S65536x128 := by
    show StableHlo.after hostOps0 (fun b => m (c, b)) (Proc.devRef .tc main_v3) = _
    after_results
    rfl
  rw [e]
  refine (shapeCast_apply _ shapeCasts_S8388608_S65536x128 j (ix1 (flat j)) ?_).trans ?_
  · rw [Shape.rowMajor_val_one, Shape.rowMajor_val_two]; rfl
  refine (shapeCast_apply _ shapeCasts_S1x8388608_S8388608 (ix1 (flat j)) (ix2 0 (flat j)) ?_).trans ?_
  · rw [Shape.rowMajor_val_two, Shape.rowMajor_val_one]
    show 0 * 8388608 + (flat j).val = (flat j).val
    omega
  refine (extractStridedSlice_apply ![0, 0] _ slices_S2x8388608_S1x8388608_0_0 (ix2 0 (flat j)) (ix2 0 (flat j)) (fun a => ?_)).trans ?_
  · match a with
    | ⟨0, _⟩ => rfl
    | ⟨1, _⟩ => show (flat j).val = 0 + (flat j).val; omega
  exact transpose_apply [1, 0] _ transposes_S8388608x2_S2x8388608_1_0 (ix2 0 (flat j)) (ix2 (flat j) 0)
    (fun b => by match b with | ⟨0, _⟩ => rfl | ⟨1, _⟩ => rfl)

/-- Plane 1 at `j`: feature 1 of input row `flat j`. -/
theorem plane1 (c : Dev nD) (j : S65536x128.Idx) :
    V m c main_v6 j = (m ((c : Thread nD τ).loc main_arg0)) (ix2 (flat j) 1) := by
  have e : (V m c main_v6 : S65536x128.Idx → Elt Ideal .f32)
      = shapeCast S65536x128 (shapeCast S8388608 (extractStridedSlice S1x8388608 ![1, 0]
          (transpose S2x8388608 [1, 0] (m ((c : Thread nD τ).loc main_arg0)) transposes_S8388608x2_S2x8388608_1_0)
          slices_S2x8388608_S1x8388608_1_0) shapeCasts_S1x8388608_S8388608) shapeCasts_S8388608_S65536x128 := by
    show StableHlo.after hostOps0 (fun b => m (c, b)) (Proc.devRef .tc main_v6) = _
    after_results
    rfl
  rw [e]
  refine (shapeCast_apply _ shapeCasts_S8388608_S65536x128 j (ix1 (flat j)) ?_).trans ?_
  · rw [Shape.rowMajor_val_one, Shape.rowMajor_val_two]; rfl
  refine (shapeCast_apply _ shapeCasts_S1x8388608_S8388608 (ix1 (flat j)) (ix2 0 (flat j)) ?_).trans ?_
  · rw [Shape.rowMajor_val_two, Shape.rowMajor_val_one]
    show 0 * 8388608 + (flat j).val = (flat j).val
    omega
  refine (extractStridedSlice_apply ![1, 0] _ slices_S2x8388608_S1x8388608_1_0 (ix2 0 (flat j)) (ix2 1 (flat j)) (fun a => ?_)).trans ?_
  · match a with
    | ⟨0, _⟩ => rfl
    | ⟨1, _⟩ => show (flat j).val = 0 + (flat j).val; omega
  exact transpose_apply [1, 0] _ transposes_S8388608x2_S2x8388608_1_0 (ix2 1 (flat j)) (ix2 (flat j) 1)
    (fun b => by match b with | ⟨0, _⟩ => rfl | ⟨1, _⟩ => rfl)

/-! ## The output plane -/

/-- The output plane: at `j`, the network on input row `flat j`. -/
def outPlane (c : Dev nD) : S65536x128.Idx → Elt Ideal .f32 := fun j =>
  net (m ((c : Thread nD τ).loc main_arg1)) (m ((c : Thread nD τ).loc main_arg2)) (m ((c : Thread nD τ).loc main_arg3)) (m ((c : Thread nD τ).loc main_arg4))
    (fun k => (m ((c : Thread nD τ).loc main_arg0)) (ix2 (flat j) k))

/-- The windows' block indices over the grid: the planes' and the output's move with the grid point along the
    rows; the weights' stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- The weights' blocks are the whole arrays, at every point. -/
theorem wblk2 (c : Dev nD) (t : Fin cfg0.N) : (iblk m c 2 t : S8x2x2.Idx → Elt Ideal .f32) = (m ((c : Thread nD τ).loc main_arg1)) := by
  obtain ⟨-, -, -, -, -, -, e0, e1, e2, -⟩ := idx_facts t
  unfold iblk
  rw [show V m c (Pipeline.arrRef spec0 2) = (m ((c : Thread nD τ).loc main_arg1)) from V_main_arg1 m c]
  funext y
  show (m ((c : Thread nD τ).loc main_arg1)) (((cfg0.win 2).blk t).view.emb y) = (m ((c : Thread nD τ).loc main_arg1)) y
  refine congrArg _ (funext fun a => Fin.ext ?_)
  match a with
  | ⟨0, _⟩ => show win0_2.index t (0 : Fin 3) * 8 + 1 * (y 0).val = (y 0).val; omega
  | ⟨1, _⟩ => show win0_2.index t (1 : Fin 3) * 2 + 1 * (y 1).val = (y 1).val; omega
  | ⟨2, _⟩ => show win0_2.index t (2 : Fin 3) * 2 + 1 * (y 2).val = (y 2).val; omega

theorem wblk3 (c : Dev nD) (t : Fin cfg0.N) : (iblk m c 3 t : S8x2.Idx → Elt Ideal .f32) = (m ((c : Thread nD τ).loc main_arg2)) := by
  obtain ⟨-, -, -, -, -, -, -, -, -, e0, e1, -⟩ := idx_facts t
  unfold iblk
  rw [show V m c (Pipeline.arrRef spec0 3) = (m ((c : Thread nD τ).loc main_arg2)) from V_main_arg2 m c]
  funext y
  show (m ((c : Thread nD τ).loc main_arg2)) (((cfg0.win 3).blk t).view.emb y) = (m ((c : Thread nD τ).loc main_arg2)) y
  refine congrArg _ (funext fun a => Fin.ext ?_)
  match a with
  | ⟨0, _⟩ => show win0_3.index t (0 : Fin 2) * 8 + 1 * (y 0).val = (y 0).val; omega
  | ⟨1, _⟩ => show win0_3.index t (1 : Fin 2) * 2 + 1 * (y 1).val = (y 1).val; omega

theorem wblk4 (c : Dev nD) (t : Fin cfg0.N) : (iblk m c 4 t : S1x2.Idx → Elt Ideal .f32) = (m ((c : Thread nD τ).loc main_arg3)) := by
  obtain ⟨-, -, -, -, -, -, -, -, -, -, -, e0, e1, -⟩ := idx_facts t
  unfold iblk
  rw [show V m c (Pipeline.arrRef spec0 4) = (m ((c : Thread nD τ).loc main_arg3)) from V_main_arg3 m c]
  funext y
  show (m ((c : Thread nD τ).loc main_arg3)) (((cfg0.win 4).blk t).view.emb y) = (m ((c : Thread nD τ).loc main_arg3)) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2 + 1 * (y 1).val = (y 1).val; omega

theorem wblk5 (c : Dev nD) (t : Fin cfg0.N) : (iblk m c 5 t : S1.Idx → Elt Ideal .f32) = (m ((c : Thread nD τ).loc main_arg4)) := by
  obtain ⟨-, -, -, -, -, -, -, -, -, -, -, -, -, e0⟩ := idx_facts t
  unfold iblk
  rw [show V m c (Pipeline.arrRef spec0 5) = (m ((c : Thread nD τ).loc main_arg4)) from V_main_arg4 m c]
  funext y
  show (m ((c : Thread nD τ).loc main_arg4)) (((cfg0.win 5).blk t).view.emb y) = (m ((c : Thread nD τ).loc main_arg4)) y
  refine congrArg _ (funext fun a => Fin.ext ?_)
  match a with
  | ⟨0, _⟩ => show win0_5.index t (0 : Fin 1) * 1 + 1 * (y 0).val = (y 0).val; omega

/-- The planes' blocks at point `t` sit where the output's block sits. -/
theorem pblk0 (c : Dev nD) (t : Fin cfg0.N) (j : S4096x128.Idx) :
    iblk m c 0 t j = V m c main_v3 (((cfg0.win 6).blk t).view.emb j) := by
  obtain ⟨a0, a1, -, -, o0, o1, -⟩ := idx_facts t
  show V m c main_v3 (((cfg0.win 0).blk t).view.emb j) = V m c main_v3 (((cfg0.win 6).blk t).view.emb j)
  refine congrArg _ (funext fun a => Fin.ext ?_)
  match a with
  | ⟨0, _⟩ => show win0_0.index t (0 : Fin 2) * 4096 + 1 * (j 0).val = win0_6.index t (0 : Fin 2) * 4096 + 1 * (j 0).val; omega
  | ⟨1, _⟩ => show win0_0.index t (1 : Fin 2) * 128 + 1 * (j 1).val = win0_6.index t (1 : Fin 2) * 128 + 1 * (j 1).val; omega

theorem pblk1 (c : Dev nD) (t : Fin cfg0.N) (j : S4096x128.Idx) :
    iblk m c 1 t j = V m c main_v6 (((cfg0.win 6).blk t).view.emb j) := by
  obtain ⟨-, -, b0, b1, o0, o1, -⟩ := idx_facts t
  show V m c main_v6 (((cfg0.win 1).blk t).view.emb j) = V m c main_v6 (((cfg0.win 6).blk t).view.emb j)
  refine congrArg _ (funext fun a => Fin.ext ?_)
  match a with
  | ⟨0, _⟩ => show win0_1.index t (0 : Fin 2) * 4096 + 1 * (j 0).val = win0_6.index t (0 : Fin 2) * 4096 + 1 * (j 0).val; omega
  | ⟨1, _⟩ => show win0_1.index t (1 : Fin 2) * 128 + 1 * (j 1).val = win0_6.index t (1 : Fin 2) * 128 + 1 * (j 1).val; omega

/-- WHAT POINT `t` WRITES BACK is block `t` of the output plane. -/
theorem flushed_eq (c : Dev nD) (t : Fin cfg0.N) :
    (dats m 0 c).flushed 6 t = ((cfg0.win 6).blk t).view.read (Elt Ideal) (outPlane m c) := by
  have hb := block_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t)
    (iblk m c 0 t) (iblk m c 1 t) (iblk m c 2 t) (iblk m c 3 t) (iblk m c 4 t) (iblk m c 5 t)
  show (cfg0.win 6).cut (grid0.coords t) ((dats m 0 c).after 6 t) = _
  rw [after0_6]
  unfold outsAt0
  rw [hb]
  funext j
  show net (iblk m c 2 t) (iblk m c 3 t) (iblk m c 4 t) (iblk m c 5 t) ![iblk m c 0 t j, iblk m c 1 t j]
      = outPlane m c (((cfg0.win 6).blk t).view.emb j)
  rw [wblk2 m c t, wblk3 m c t, wblk4 m c t, wblk5 m c t, pblk0 m c t j, pblk1 m c t j, plane0, plane1]
  unfold outPlane
  refine congrArg _ (funext fun k => ?_)
  match k with
  | ⟨0, _⟩ => rfl
  | ⟨1, _⟩ => rfl

/-- An index of the plane is in point `t`'s block iff each coordinate is in the block's range on its axis. -/
theorem mem_blk (t : Fin cfg0.N) (i : S65536x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v7).slice (win0_6.rect t)).set ↔ _
  rw [View.set_slice_whole, Rect.mem_set_unit]
  exact Iff.rfl

/-- The sixteen blocks tile the plane: row `r` is in the block of point `r / 4096`. -/
theorem cover (i : S65536x128.Idx) :
    ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 16 := N_0
  let t : Fin cfg0.N := ⟨(i 0).val / 4096, by rw [hN]; omega⟩
  obtain ⟨-, -, -, -, o0, o1, -⟩ := idx_facts t
  have ht : t.val = (i 0).val / 4096 := rfl
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- THE OUTPUT PLANE after the run. -/
theorem final (c : Dev nD) : (dats m 0 c).arrAt 6 cfg0.N = outPlane m c :=
  (dats m 0 c).arrAt_eq_of_cover 6 (outPlane m c) (fun t _ => flushed_eq m c t) cover

/-! ## The result column -/

/-- The host's last view: the result column is the network on each input row. -/
theorem column (c : Dev nD) :
    (Pipeline.afterTail₀ cfgs (dats m) 0 (V0 m) [hostOps1] c main_v8 : S8388608x1.Idx → Elt Ideal .f32)
      = result (m ((c : Thread nD τ).loc main_arg0)) (m ((c : Thread nD τ).loc main_arg1)) (m ((c : Thread nD τ).loc main_arg2)) (m ((c : Thread nD τ).loc main_arg3)) (m ((c : Thread nD τ).loc main_arg4)) := by
  have e : (Pipeline.afterTail₀ cfgs (dats m) 0 (V0 m) [hostOps1] c main_v8 : S8388608x1.Idx → Elt Ideal .f32)
      = shapeCast S8388608x1 (outPlane m c) shapeCasts_S65536x128_S8388608x1 := by
    unfold Pipeline.afterTail₀
    show StableHlo.after hostOps1 _ (Proc.devRef .tc main_v8) = _
    after_results
    rw [show Pipeline.withArrays (cfgs 0).spec c (V0 m c) (fun w => (dats m 0 c).arrAt w (cfgs 0).N) (Proc.devRef .tc main_v7)
        = outPlane m c from (Pipeline.withArrays_arr spec0 launch0.win.arr_inj c _ _ 6).trans (final m c)]
    rfl
  rw [e]
  funext i
  have hi0 : (i 0).val < 8388608 := (i 0).isLt
  have hi1 : (i 1).val < 1 := (i 1).isLt
  refine (shapeCast_apply (outPlane m c) shapeCasts_S65536x128_S8388608x1 i
    (ix2 ⟨(i 0).val / 128, by omega⟩ ⟨(i 0).val % 128, by omega⟩) ?_).trans ?_
  · rw [Shape.rowMajor_val_two, Shape.rowMajor_val_two]
    show (i 0).val / 128 * 128 + (i 0).val % 128 = (i 0).val * 1 + (i 1).val
    omega
  · unfold outPlane result
    have hf : flat (ix2 ⟨(i 0).val / 128, by omega⟩ ⟨(i 0).val % 128, by omega⟩) = i 0 :=
      Fin.ext (by show (i 0).val / 128 * 128 + (i 0).val % 128 = (i 0).val; omega)
    rw [hf]

/-- THE KERNEL'S RUN, read: the result is the network on each input row, and the arguments are as they were. -/
theorem run : θ_run defs (onTc (τ := τ) (main (F := Ideal))) ⟨m, fun _ => 0, ρ⟩ fun r => ∀ c : Dev nD,
      r.2.mem ((c.tc : Thread nD τ).loc main_v8)
        = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v8 (Pipeline.mem_restRefs_of main_v8 (by decide) (by decide))).trans (column m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main m ρ)

end Cert.Mlp.Kernel

end
-- ==== Proof.lean ====
/-
  Both programs compute one small network row by row. A row of the input is a pair of numbers; eight hidden layers send a
  pair `h` to the pair `o ↦ σ(h₀ · W[l,o,0] + h₁ · W[l,o,1] + b[l,o])`, and the head sends the last pair to the number
  `σ(h₀ · W8[0,0] + h₁ · W8[0,1] + b8[0])`, with `σ z = 1 / (1 + e^(-z))` on the extended reals (Proof/Spec.lean).

  The reference applies the layers to the whole `[8388608, 2]` array: each layer is a contraction over the two features,
  a bias, and `σ` spelt as negate, exponential, add one, divide into one — which is `σ` itself (Proof/RefSide.lean).

  The kernel first lays the two features out as two `[65536, 128]` planes (row `128 r + l` of the input at `(r, l)`),
  then works through the planes in sixteen blocks of 4096 rows, each block in sixteen strips of 256 rows; on a strip every
  operation is lane by lane with the weights spread as scalars, so each stored element is the network on the pair of
  plane elements at its place (Proof/StripValue.lean, Proof/Block.lean); the strips tile the block and the blocks the
  output plane, and the plane viewed as a column `[8388608, 1]` has the network on input row `b` in row `b`
  (Proof/KernelValue.lean).

  The two sides spell the same products and sums in the same order, so they agree on all extended reals: the
  precondition (finite inputs) is not used. The idealization rewrote nothing, so `preserves` is trivial.
-/
import proofs.«122481_j37615323578711_2_alg».proof.Defs
import proofs.«122481_j37615323578711_2_alg».proof.Proof.Gen.Kernel
import proofs.«122481_j37615323578711_2_alg».proof.Proof.Gen.Kernel.Skeleton
import proofs.«122481_j37615323578711_2_alg».proof.Proof.Gen.Kernel.Loops
import proofs.«122481_j37615323578711_2_alg».proof.Proof.Gen.Kernel.Launch
import proofs.«122481_j37615323578711_2_alg».proof.Proof.Gen.Kernel.Points
import proofs.«122481_j37615323578711_2_alg».proof.Proof.Gen.Kernel.Frame
import proofs.«122481_j37615323578711_2_alg».proof.Proof.Gen.KernelIdeal
import proofs.«122481_j37615323578711_2_alg».proof.Proof.Gen.KernelIdeal.Skeleton
import proofs.«122481_j37615323578711_2_alg».proof.Proof.Gen.KernelIdeal.Loops
import proofs.«122481_j37615323578711_2_alg».proof.Proof.Gen.KernelIdeal.Launch
import proofs.«122481_j37615323578711_2_alg».proof.Proof.Gen.KernelIdeal.Points
import proofs.«122481_j37615323578711_2_alg».proof.Proof.Gen.KernelIdeal.Frame
import proofs.«122481_j37615323578711_2_alg».proof.Proof.Gen.ReferenceIdeal
import proofs.«122481_j37615323578711_2_alg».proof.Proof.Gen.ReferenceIdeal.Run
import proofs.«122481_j37615323578711_2_alg».proof.Proof.Gen.ReferenceIdeal.Read
import proofs.«122481_j37615323578711_2_alg».proof.Proof.Gen.Pre_finite_inputs
import proofs.«122481_j37615323578711_2_alg».proof.Proof.Spec
import proofs.«122481_j37615323578711_2_alg».proof.Proof.RefSide
import proofs.«122481_j37615323578711_2_alg».proof.Proof.StripValue
import proofs.«122481_j37615323578711_2_alg».proof.Proof.Block
import proofs.«122481_j37615323578711_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network applied to each input row. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v121_eq m' c).trans
    ((Cert.Mlp.Ref.result_eq _ _ _ _ _).trans ?_))
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
